-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S_ : Shape := ⟨0, ![]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  reducesTo_S_S_d : S_.ReducesTo [] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg29 : FVec F S128x1 .f32) (main_arg30 : FVec F S1 .f32) (main_v135 : IVec S_ 1) : IVec S_ 1 :=
  let main_v136 : FVec F S128x1 .f32 := Host.absf main_arg29
  let main_cst_54 : FVec F S_ .f32 := constant S_ .f32 0x7F800000#32
  let main_v137 : FVec F S128x1 .f32 := broadcastInDim S128x1 ![] bcast_S_S128x1 main_cst_54
  let main_v138 : IVec S128x1 1 := cmpf .olt main_v136 main_v137
  let main_c_55 : IVec S_ 1 := constantI S_ 1 1#1
  let main_v139 : IVec S_ 1 := (fun x v => Host.reduce IntOp.andi x v reducesTo_S128x1_S_d0_1 h_S_) main_v138 main_c_55
  let main_v140 : IVec S_ 1 := andi main_v135 main_v139
  let main_v141 : FVec F S1 .f32 := Host.absf main_arg30
  let main_cst_56 : FVec F S_ .f32 := constant S_ .f32 0x7F800000#32
  let main_v142 : FVec F S1 .f32 := broadcastInDim S1 ![] bcast_S_S1 main_cst_56
  let main_v143 : IVec S1 1 := cmpf .olt main_v141 main_v142
  let main_c_57 : IVec S_ 1 := constantI S_ 1 1#1
  let main_v144 : IVec S_ 1 := (fun x v => Host.reduce IntOp.andi x v reducesTo_S1_S_d0 h_S_) main_v143 main_c_57
  let main_v145 : IVec S_ 1 := andi main_v140 main_v144
  main_v145

def fn_part7 {F : FTy → Type} [FloatOps F] (main_arg26 : FVec F S128 .f32) (main_arg27 : FVec F S128x128 .f32) (main_arg28 : FVec F S128 .f32) (main_arg29 : FVec F S128x1 .f32) (main_arg30 : FVec F S1 .f32) (main_v115 : IVec S_ 1) (main_v118 : IVec S128 1) : IVec S_ 1 :=
  let main_c_47 : IVec S_ 1 := constantI S_ 1 1#1
  let main_v119 : IVec S_ 1 := (fun x v => Host.reduce IntOp.andi x v reducesTo_S128_S_d0 h_S_) main_v118 main_c_47
  let main_v120 : IVec S_ 1 := andi main_v115 main_v119
  let main_v121 : FVec F S128 .f32 := Host.absf main_arg26
  let main_cst_48 : FVec F S_ .f32 := constant S_ .f32 0x7F800000#32
  let main_v122 : FVec F S128 .f32 := broadcastInDim S128 ![] bcast_S_S128 main_cst_48
  let main_v123 : IVec S128 1 := cmpf .olt main_v121 main_v122
  let main_c_49 : IVec S_ 1 := constantI S_ 1 1#1
  let main_v124 : IVec S_ 1 := (fun x v => Host.reduce IntOp.andi x v reducesTo_S128_S_d0 h_S_) main_v123 main_c_49
  let main_v125 : IVec S_ 1 := andi main_v120 main_v124
  let main_v126 : FVec F S128x128 .f32 := Host.absf main_arg27
  let main_cst_50 : FVec F S_ .f32 := constant S_ .f32 0x7F800000#32
  let main_v127 : FVec F S128x128 .f32 := broadcastInDim S128x128 ![] bcast_S_S128x128 main_cst_50
  let main_v128 : IVec S128x128 1 := cmpf .olt main_v126 main_v127
  let main_c_51 : IVec S_ 1 := constantI S_ 1 1#1
  let main_v129 : IVec S_ 1 := (fun x v => Host.reduce IntOp.andi x v reducesTo_S128x128_S_d0_1 h_S_) main_v128 main_c_51
  let main_v130 : IVec S_ 1 := andi main_v125 main_v129
  let main_v131 : FVec F S128 .f32 := Host.absf main_arg28
  let main_cst_52 : FVec F S_ .f32 := constant S_ .f32 0x7F800000#32
  let main_v132 : FVec F S128 .f32 := broadcastInDim S128 ![] bcast_S_S128 main_cst_52
  let main_v133 : IVec S128 1 := cmpf .olt main_v131 main_v132
  let main_c_53 : IVec S_ 1 := constantI S_ 1 1#1
  let main_v134 : IVec S_ 1 := (fun x v => Host.reduce IntOp.andi x v reducesTo_S128_S_d0 h_S_) main_v133 main_c_53
  let main_v135 : IVec S_ 1 := andi main_v130 main_v134
  fn_part8 (F := F) main_arg29 main_arg30 main_v135

def fn_part6 {F : FTy → Type} [FloatOps F] (main_arg23 : FVec F S128 .f32) (main_arg24 : FVec F S128 .f32) (main_arg25 : FVec F S128 .f32) (main_arg26 : FVec F S128 .f32) (main_arg27 : FVec F S128x128 .f32) (main_arg28 : FVec F S128 .f32) (main_arg29 : FVec F S128x1 .f32) (main_arg30 : FVec F S1 .f32) (main_v100 : IVec S_ 1) (main_v101 : FVec F S128 .f32) : IVec S_ 1 :=
  let main_cst_40 : FVec F S_ .f32 := constant S_ .f32 0x7F800000#32
  let main_v102 : FVec F S128 .f32 := broadcastInDim S128 ![] bcast_S_S128 main_cst_40
  let main_v103 : IVec S128 1 := cmpf .olt main_v101 main_v102
  let main_c_41 : IVec S_ 1 := constantI S_ 1 1#1
  let main_v104 : IVec S_ 1 := (fun x v => Host.reduce IntOp.andi x v reducesTo_S128_S_d0 h_S_) main_v103 main_c_41
  let main_v105 : IVec S_ 1 := andi main_v100 main_v104
  let main_v106 : FVec F S128 .f32 := Host.absf main_arg23
  let main_cst_42 : FVec F S_ .f32 := constant S_ .f32 0x7F800000#32
  let main_v107 : FVec F S128 .f32 := broadcastInDim S128 ![] bcast_S_S128 main_cst_42
  let main_v108 : IVec S128 1 := cmpf .olt main_v106 main_v107
  let main_c_43 : IVec S_ 1 := constantI S_ 1 1#1
  let main_v109 : IVec S_ 1 := (fun x v => Host.reduce IntOp.andi x v reducesTo_S128_S_d0 h_S_) main_v108 main_c_43
  let main_v110 : IVec S_ 1 := andi main_v105 main_v109
  let main_v111 : FVec F S128 .f32 := Host.absf main_arg24
  let main_cst_44 : FVec F S_ .f32 := constant S_ .f32 0x7F800000#32
  let main_v112 : FVec F S128 .f32 := broadcastInDim S128 ![] bcast_S_S128 main_cst_44
  let main_v113 : IVec S128 1 := cmpf .olt main_v111 main_v112
  let main_c_45 : IVec S_ 1 := constantI S_ 1 1#1
  let main_v114 : IVec S_ 1 := (fun x v => Host.reduce IntOp.andi x v reducesTo_S128_S_d0 h_S_) main_v113 main_c_45
  let main_v115 : IVec S_ 1 := andi main_v110 main_v114
  let main_v116 : FVec F S128 .f32 := Host.absf main_arg25
  let main_cst_46 : FVec F S_ .f32 := constant S_ .f32 0x7F800000#32
  let main_v117 : FVec F S128 .f32 := broadcastInDim S128 ![] bcast_S_S128 main_cst_46
  let main_v118 : IVec S128 1 := cmpf .olt main_v116 main_v117
  fn_part7 (F := F) main_arg26 main_arg27 main_arg28 main_arg29 main_arg30 main_v115 main_v118

def fn_part5 {F : FTy → Type} [FloatOps F] (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x128 .f32) (main_arg28 : FVec F S128 .f32) (main_arg29 : FVec F S128x1 .f32) (main_arg30 : FVec F S1 .f32) (main_v81 : IVec S_ 1) (main_v83 : IVec S_ 1) (main_c_33 : IVec S_ 1) : IVec S_ 1 :=
  let main_v84 : IVec S_ 1 := (fun x v => Host.reduce IntOp.andi x v reducesTo_S_S_d h_S_) main_v83 main_c_33
  let main_v85 : IVec S_ 1 := andi main_v81 main_v84
  let main_v86 : FVec F S128x128 .f32 := Host.absf main_arg19
  let main_cst_34 : FVec F S_ .f32 := constant S_ .f32 0x7F800000#32
  let main_v87 : FVec F S128x128 .f32 := broadcastInDim S128x128 ![] bcast_S_S128x128 main_cst_34
  let main_v88 : IVec S128x128 1 := cmpf .olt main_v86 main_v87
  let main_c_35 : IVec S_ 1 := constantI S_ 1 1#1
  let main_v89 : IVec S_ 1 := (fun x v => Host.reduce IntOp.andi x v reducesTo_S128x128_S_d0_1 h_S_) main_v88 main_c_35
  let main_v90 : IVec S_ 1 := andi main_v85 main_v89
  let main_v91 : FVec F S128 .f32 := Host.absf main_arg20
  let main_cst_36 : FVec F S_ .f32 := constant S_ .f32 0x7F800000#32
  let main_v92 : FVec F S128 .f32 := broadcastInDim S128 ![] bcast_S_S128 main_cst_36
  let main_v93 : IVec S128 1 := cmpf .olt main_v91 main_v92
  let main_c_37 : IVec S_ 1 := constantI S_ 1 1#1
  let main_v94 : IVec S_ 1 := (fun x v => Host.reduce IntOp.andi x v reducesTo_S128_S_d0 h_S_) main_v93 main_c_37
  let main_v95 : IVec S_ 1 := andi main_v90 main_v94
  let main_v96 : FVec F S128x128 .f32 := Host.absf main_arg21
  let main_cst_38 : FVec F S_ .f32 := constant S_ .f32 0x7F800000#32
  let main_v97 : FVec F S128x128 .f32 := broadcastInDim S128x128 ![] bcast_S_S128x128 main_cst_38
  let main_v98 : IVec S128x128 1 := cmpf .olt main_v96 main_v97
  let main_c_39 : IVec S_ 1 := constantI S_ 1 1#1
  let main_v99 : IVec S_ 1 := (fun x v => Host.reduce IntOp.andi x v reducesTo_S128x128_S_d0_1 h_S_) main_v98 main_c_39
  let main_v100 : IVec S_ 1 := andi main_v95 main_v99
  let main_v101 : FVec F S128 .f32 := Host.absf main_arg22
  fn_part6 (F := F) main_arg23 main_arg24 main_arg25 main_arg26 main_arg27 main_arg28 main_arg29 main_arg30 main_v100 main_v101

def fn_part4 {F : FTy → Type} [FloatOps F] (main_arg16 : FVec F S128 .f32) (main_arg17 : FVec F S128 .f32) (main_arg18 : FVec F S_ .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x128 .f32) (main_arg28 : FVec F S128 .f32) (main_arg29 : FVec F S128x1 .f32) (main_arg30 : FVec F S1 .f32) (main_v66 : IVec S_ 1) (main_v67 : FVec F S128 .f32) : IVec S_ 1 :=
  let main_cst_26 : FVec F S_ .f32 := constant S_ .f32 0x7F800000#32
  let main_v68 : FVec F S128 .f32 := broadcastInDim S128 ![] bcast_S_S128 main_cst_26
  let main_v69 : IVec S128 1 := cmpf .olt main_v67 main_v68
  let main_c_27 : IVec S_ 1 := constantI S_ 1 1#1
  let main_v70 : IVec S_ 1 := (fun x v => Host.reduce IntOp.andi x v reducesTo_S128_S_d0 h_S_) main_v69 main_c_27
  let main_v71 : IVec S_ 1 := andi main_v66 main_v70
  let main_v72 : FVec F S128 .f32 := Host.absf main_arg16
  let main_cst_28 : FVec F S_ .f32 := constant S_ .f32 0x7F800000#32
  let main_v73 : FVec F S128 .f32 := broadcastInDim S128 ![] bcast_S_S128 main_cst_28
  let main_v74 : IVec S128 1 := cmpf .olt main_v72 main_v73
  let main_c_29 : IVec S_ 1 := constantI S_ 1 1#1
  let main_v75 : IVec S_ 1 := (fun x v => Host.reduce IntOp.andi x v reducesTo_S128_S_d0 h_S_) main_v74 main_c_29
  let main_v76 : IVec S_ 1 := andi main_v71 main_v75
  let main_v77 : FVec F S128 .f32 := Host.absf main_arg17
  let main_cst_30 : FVec F S_ .f32 := constant S_ .f32 0x7F800000#32
  let main_v78 : FVec F S128 .f32 := broadcastInDim S128 ![] bcast_S_S128 main_cst_30
  let main_v79 : IVec S128 1 := cmpf .olt main_v77 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v76 main_v80
  let main_v82 : FVec F S_ .f32 := Host.absf main_arg18
  let main_cst_32 : FVec F S_ .f32 := constant S_ .f32 0x7F800000#32
  let main_v83 : IVec S_ 1 := cmpf .olt main_v82 main_cst_32
  let main_c_33 : IVec S_ 1 := constantI S_ 1 1#1
  fn_part5 (F := F) main_arg19 main_arg20 main_arg21 main_arg22 main_arg23 main_arg24 main_arg25 main_arg26 main_arg27 main_arg28 main_arg29 main_arg30 main_v81 main_v83 main_c_33

def fn_part3 {F : FTy → Type} [FloatOps F] (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S_ .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x128 .f32) (main_arg28 : FVec F S128 .f32) (main_arg29 : FVec F S128x1 .f32) (main_arg30 : FVec F S1 .f32) (main_v47 : IVec S_ 1) (main_v49 : IVec S_ 1) (main_c_19 : IVec S_ 1) : IVec S_ 1 :=
  let main_v50 : IVec S_ 1 := (fun x v => Host.reduce IntOp.andi x v reducesTo_S_S_d h_S_) main_v49 main_c_19
  let main_v51 : IVec S_ 1 := andi main_v47 main_v50
  let main_v52 : FVec F S128x128 .f32 := Host.absf main_arg12
  let main_cst_20 : FVec F S_ .f32 := constant S_ .f32 0x7F800000#32
  let main_v53 : FVec F S128x128 .f32 := broadcastInDim S128x128 ![] bcast_S_S128x128 main_cst_20
  let main_v54 : IVec S128x128 1 := cmpf .olt main_v52 main_v53
  let main_c_21 : IVec S_ 1 := constantI S_ 1 1#1
  let main_v55 : IVec S_ 1 := (fun x v => Host.reduce IntOp.andi x v reducesTo_S128x128_S_d0_1 h_S_) main_v54 main_c_21
  let main_v56 : IVec S_ 1 := andi main_v51 main_v55
  let main_v57 : FVec F S128 .f32 := Host.absf main_arg13
  let main_cst_22 : FVec F S_ .f32 := constant S_ .f32 0x7F800000#32
  let main_v58 : FVec F S128 .f32 := broadcastInDim S128 ![] bcast_S_S128 main_cst_22
  let main_v59 : IVec S128 1 := cmpf .olt main_v57 main_v58
  let main_c_23 : IVec S_ 1 := constantI S_ 1 1#1
  let main_v60 : IVec S_ 1 := (fun x v => Host.reduce IntOp.andi x v reducesTo_S128_S_d0 h_S_) main_v59 main_c_23
  let main_v61 : IVec S_ 1 := andi main_v56 main_v60
  let main_v62 : FVec F S128 .f32 := Host.absf main_arg14
  let main_cst_24 : FVec F S_ .f32 := constant S_ .f32 0x7F800000#32
  let main_v63 : FVec F S128 .f32 := broadcastInDim S128 ![] bcast_S_S128 main_cst_24
  let main_v64 : IVec S128 1 := cmpf .olt main_v62 main_v63
  let main_c_25 : IVec S_ 1 := constantI S_ 1 1#1
  let main_v65 : IVec S_ 1 := (fun x v => Host.reduce IntOp.andi x v reducesTo_S128_S_d0 h_S_) main_v64 main_c_25
  let main_v66 : IVec S_ 1 := andi main_v61 main_v65
  let main_v67 : FVec F S128 .f32 := Host.absf main_arg15
  fn_part4 (F := F) main_arg16 main_arg17 main_arg18 main_arg19 main_arg20 main_arg21 main_arg22 main_arg23 main_arg24 main_arg25 main_arg26 main_arg27 main_arg28 main_arg29 main_arg30 main_v66 main_v67

def fn_part2 {F : FTy → Type} [FloatOps F] (main_arg9 : FVec F S128 .f32) (main_arg10 : FVec F S128 .f32) (main_arg11 : FVec F S_ .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S_ .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x128 .f32) (main_arg28 : FVec F S128 .f32) (main_arg29 : FVec F S128x1 .f32) (main_arg30 : FVec F S1 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S128 .f32 := Host.absf main_arg9
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg10
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S_ .f32 := Host.absf main_arg11
  let main_cst_18 : FVec F S_ .f32 := constant S_ .f32 0x7F800000#32
  let main_v49 : IVec S_ 1 := cmpf .olt main_v48 main_cst_18
  let main_c_19 : IVec S_ 1 := constantI S_ 1 1#1
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_v47 main_v49 main_c_19

def fn_part1 {F : FTy → Type} [FloatOps F] (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S_ .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S_ .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x128 .f32) (main_arg28 : FVec F S128 .f32) (main_arg29 : FVec F S128x1 .f32) (main_arg30 : FVec F S1 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128x128 .f32 := Host.absf main_arg5
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128 .f32 := Host.absf main_arg6
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S128 .f32 := Host.absf main_arg7
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128 .f32 := Host.absf main_arg8
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v32 main_v33

def fn {F : FTy → Type} [FloatOps F] (main_arg0 : FVec F S100000x64 .f32) (main_arg1 : IVec S2x1600000 32) (main_arg2 : FVec F S_ .f32) (main_arg3 : FVec F S64x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S_ .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S_ .f32) (main_arg19 : FVec F S128x128 .f32) (main_arg20 : FVec F S128 .f32) (main_arg21 : FVec F S128x128 .f32) (main_arg22 : FVec F S128 .f32) (main_arg23 : FVec F S128 .f32) (main_arg24 : FVec F S128 .f32) (main_arg25 : FVec F S128 .f32) (main_arg26 : FVec F S128 .f32) (main_arg27 : FVec F S128x128 .f32) (main_arg28 : FVec F S128 .f32) (main_arg29 : FVec F S128x1 .f32) (main_arg30 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S64x128 .f32 := Host.absf main_arg3
  let main_cst_2 : FVec F S_ .f32 := constant S_ .f32 0x7F800000#32
  let main_v9 : FVec F S64x128 .f32 := broadcastInDim S64x128 ![] bcast_S_S64x128 main_cst_2
  let main_v10 : IVec S64x128 1 := cmpf .olt main_v8 main_v9
  let main_c_3 : IVec S_ 1 := constantI S_ 1 1#1
  let main_v11 : IVec S_ 1 := (fun x v => Host.reduce IntOp.andi x v reducesTo_S64x128_S_d0_1 h_S_) main_v10 main_c_3
  let main_v12 : IVec S_ 1 := andi main_v7 main_v11
  let main_v13 : FVec F S128 .f32 := Host.absf main_arg4
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v12 main_v15 main_c_5
-- ==== Kernel.lean ====
abbrev S100000x64 : Shape := ⟨2, ![100000, 64]⟩
abbrev S2x1600000 : Shape := ⟨2, ![2, 1600000]⟩
abbrev S_ : Shape := ⟨0, ![]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000x128 : Shape := ⟨2, ![100000, 128]⟩
abbrev S4000x64 : Shape := ⟨2, ![4000, 64]⟩
abbrev S4000x128 : Shape := ⟨2, ![4000, 128]⟩
abbrev S1x128 : Shape := ⟨2, ![1, 128]⟩
abbrev S1600000x128 : Shape := ⟨2, ![1600000, 128]⟩
abbrev S100000x1 : Shape := ⟨2, ![100000, 1]⟩
abbrev S100000 : Shape := ⟨1, ![100000]⟩

abbrev nBuf : Space → Nat
  | .hbm => 116
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S_, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128x128, .f32⟩
  | .hbm, ⟨28, _⟩ => ⟨S128, .f32⟩
  | .hbm, ⟨29, _⟩ => ⟨S128x1, .f32⟩
  | .hbm, ⟨30, _⟩ => ⟨S1, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S_, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S100000x64, .bf16⟩
  | .hbm, ⟨54, _⟩ => ⟨S64x128, .bf16⟩
  | .hbm, ⟨55, _⟩ => ⟨S128x128, .bf16⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S_, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .bf16⟩
  | .hbm, ⟨76, _⟩ => ⟨S128x128, .bf16⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S_, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S_, .bf16⟩
  | .hbm, ⟨97, _⟩ => ⟨S128x128, .bf16⟩
  | .hbm, ⟨98, _⟩ => ⟨S128, .f32⟩
  | .hbm, ⟨99, _⟩ => ⟨S128, .bf16⟩
  | .hbm, ⟨100, _⟩ => ⟨S_, .i32⟩
  | .hbm, ⟨101, _⟩ => ⟨S1, .i32⟩
  | .hbm, ⟨102, _⟩ => ⟨S128x128, .bf16⟩
  | .hbm, ⟨103, _⟩ => ⟨S_, .f32⟩
  | .hbm, ⟨104, _⟩ => ⟨S128, .f32⟩
  | .hbm, ⟨105, _⟩ => ⟨S_, .f32⟩
  | .hbm, ⟨106, _⟩ => ⟨S_, .i32⟩
  | .hbm, ⟨107, _⟩ => ⟨S1, .i32⟩
  | .hbm, ⟨108, _⟩ => ⟨S128, .f32⟩
  | .hbm, ⟨109, _⟩ => ⟨S100000x128, .bf16⟩
  | .hbm, ⟨110, _⟩ => ⟨S128x128, .bf16⟩
  | .hbm, ⟨111, _⟩ => ⟨S128x128, .bf16⟩
  | .hbm, ⟨112, _⟩ => ⟨S128x128, .bf16⟩
  | .hbm, ⟨113, _⟩ => ⟨S100000x128, .f32⟩
  | .hbm, ⟨114, _⟩ => ⟨S100000x1, .f32⟩
  | .hbm, ⟨115, _⟩ => ⟨S100000, .f32⟩
  | .local _ .vmem, ⟨0, _⟩ => ⟨S4000x64, .bf16⟩
  | .local _ .vmem, ⟨1, _⟩ => ⟨S4000x64, .bf16⟩
  | .local _ .vmem, ⟨2, _⟩ => ⟨S64x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S4000x128, .f32⟩
  | .local _ .vmem, ⟨11, _⟩ => ⟨S4000x128, .f32⟩
  | .local _ .vmem, ⟨12, _⟩ => ⟨S4000x128, .bf16⟩
  | .local _ .vmem, ⟨13, _⟩ => ⟨S4000x128, .bf16⟩
  | .local _ .vmem, ⟨14, _⟩ => ⟨S128x128, .bf16⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S4000x128, .f32⟩
  | .local _ .vmem, ⟨21, _⟩ => ⟨S4000x128, .f32⟩
  | .local _ .vmem, ⟨22, _⟩ => ⟨S4000x128, .bf16⟩
  | .local _ .vmem, ⟨23, _⟩ => ⟨S4000x128, .bf16⟩
  | .local _ .vmem, ⟨24, _⟩ => ⟨S128x128, .bf16⟩
  | .local _ .vmem, ⟨25, _⟩ => ⟨S128, .f32⟩
  | .local _ .vmem, ⟨26, _⟩ => ⟨S128x128, .bf16⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S128x128, .bf16⟩
  | .local _ .vmem, ⟨33, _⟩ => ⟨S128, .f32⟩
  | .local _ .vmem, ⟨34, _⟩ => ⟨S128x128, .bf16⟩
  | .local _ .vmem, ⟨35, _⟩ => ⟨S128, .f32⟩
  | .local _ .vmem, ⟨36, _⟩ => ⟨S4000x128, .f32⟩
  | .local _ .vmem, ⟨37, _⟩ => ⟨S4000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c_2 : Ref sig .tc := ⟨.hbm, 57, rfl⟩
abbrev main_v22 : Ref sig .tc := ⟨.hbm, 58, rfl⟩
abbrev main_v23 : Ref sig .tc := ⟨.hbm, 59, rfl⟩
abbrev main_c_3 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_6 : Ref sig .tc := ⟨.hbm, 78, rfl⟩
abbrev main_v39 : Ref sig .tc := ⟨.hbm, 79, rfl⟩
abbrev main_v40 : Ref sig .tc := ⟨.hbm, 80, rfl⟩
abbrev main_c_7 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_8 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_9 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_10 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_c_11 : Ref sig .tc := ⟨.hbm, 100, rfl⟩
abbrev main_v56 : Ref sig .tc := ⟨.hbm, 101, rfl⟩
abbrev main_v57 : Ref sig .tc := ⟨.hbm, 102, rfl⟩
abbrev main_cst_12 : Ref sig .tc := ⟨.hbm, 103, rfl⟩
abbrev main_v58 : Ref sig .tc := ⟨.hbm, 104, rfl⟩
abbrev main_v59 : Ref sig .tc := ⟨.hbm, 105, rfl⟩
abbrev main_c_13 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg13_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem12_0 : DmaSem sig := 35
abbrev cc2_sem13_0 : DmaSem sig := 36
abbrev cc2_sem13_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S4000x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  shapeCasts_S4000x128_S4000x128 : S4000x128.ShapeCasts S4000x128
  bcast_S_S128x128 : S_.BroadcastsInDim S128x128 (![] : Fin 0 → Fin S128x128.rank)
  shapeCasts_S128x1_S128 : S128x1.ShapeCasts S128
  bcast_S_S1 : S_.BroadcastsInDim S1 (![] : Fin 0 → Fin S1.rank)
  bcast_S_S128 : S_.BroadcastsInDim S128 (![] : Fin 0 → Fin S128.rank)
  shapeCasts_S1_S_ : S1.ShapeCasts S_
  shapeCasts_S128_S128 : S128.ShapeCasts S128
  slices_S100000x128_S100000x1_0_0 : S100000x128.Slices ![0, 0] S100000x1
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128x128_S1_S128_0_1_1_0_wf : ScatterDims.WF S128x128 S1 S128 [0] [1] [1] 0
  scatter_S128_S1_S__n_0_0_0_wf : ScatterDims.WF S128 S1 S_ [] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .bf16 = 32 ∨ (Rect.block (s := S100000x64) S4000x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .bf16 = 32 ∨ (Rect.block (s := S128x128) S128x128.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .bf16 = 32 ∨ (Rect.block (s := S128x128) S128x128.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S4000x128.size a ≤ S100000x128.size a
  hwx2_13 : ∀ i : grid2.Coords, EltTy.bits .f32 = 32 ∨ (Rect.block (s := S100000x128) S4000x128.size (cc2_transform_13 i) (hinb2_13 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf

abbrev win0_0 : Pipeline.Window sig grid0 :=
  Pipeline.Window.ofSpec (Memref.whole main_v18) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v62) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg23) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg24) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg25) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg26) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v65) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg28) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v57) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v61) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v66) S4000x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S_ : Shape := ⟨0, ![]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x1 : Shape := ⟨2, ![100000, 1]⟩
abbrev S1x1 : Shape := ⟨2, ![1, 1]⟩
abbrev S100000 : Shape := ⟨1, ![100000]⟩

abbrev nBuf : Space → Nat
  | .hbm => 192
  | .vmem => 0
  | .smem => 0
  | _ => 0

abbrev hbmTy0_0 (i : Nat) : BufTy := match i % 128 with
  | 0 => ⟨S100000x64, .f32⟩
  | 1 => ⟨S2x1600000, .i32⟩
  | 2 => ⟨S_, .f32⟩
  | 3 => ⟨S64x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S_, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S_, .f32⟩
  | 19 => ⟨S128x128, .f32⟩
  | 20 => ⟨S128, .f32⟩
  | 21 => ⟨S128x128, .f32⟩
  | 22 => ⟨S128, .f32⟩
  | 23 => ⟨S128, .f32⟩
  | 24 => ⟨S128, .f32⟩
  | 25 => ⟨S128, .f32⟩
  | 26 => ⟨S128, .f32⟩
  | 27 => ⟨S128x128, .f32⟩
  | 28 => ⟨S128, .f32⟩
  | 29 => ⟨S128x1, .f32⟩
  | 30 => ⟨S1, .f32⟩
  | 31 => ⟨S1x1600000, .i32⟩
  | 32 => ⟨S1600000, .i32⟩
  | 33 => ⟨S1x1600000, .i32⟩
  | 34 => ⟨S1600000, .i32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S_, .f32⟩
  | 49 => ⟨S_, .f32⟩
  | 50 => ⟨S100000x64, .f32⟩
  | 51 => ⟨S100000x64, .f32⟩
  | 52 => ⟨S100000x64, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x1600000, .i32⟩
  | 84 => ⟨S1600000, .i32⟩
  | 85 => ⟨S1x1600000, .i32⟩
  | 86 => ⟨S1600000, .i32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S_, .f32⟩
  | 101 => ⟨S_, .f32⟩
  | 102 => ⟨S100000x128, .f32⟩
  | 103 => ⟨S100000x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S128, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x64, .f32⟩

abbrev hbmTy0_1 (i : Nat) : BufTy := match i % 128 with
  | 0 => ⟨S1x1600000, .i32⟩
  | 1 => ⟨S1600000, .i32⟩
  | 2 => ⟨S1x1600000, .i32⟩
  | 3 => ⟨S1600000, .i32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S_, .f32⟩
  | 18 => ⟨S_, .f32⟩
  | 19 => ⟨S100000x128, .f32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x1, .f32⟩
  | 60 => ⟨S1x1, .f32⟩
  | 61 => ⟨S100000x1, .f32⟩
  | 62 => ⟨S100000x1, .f32⟩
  | 63 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_call0_cst : Ref sig .tc := ⟨.hbm, 57, rfl⟩
abbrev main_call0_v0 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_call1_cst : Ref sig .tc := ⟨.hbm, 64, rfl⟩
abbrev main_call1_v0 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_2 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_3 : Ref sig .tc := ⟨.hbm, 87, rfl⟩
abbrev main_v47 : Ref sig .tc := ⟨.hbm, 88, rfl⟩
abbrev main_v48 : Ref sig .tc := ⟨.hbm, 89, rfl⟩
abbrev main_c_4 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_5 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_6 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_call2_cst : Ref sig .tc := ⟨.hbm, 109, rfl⟩
abbrev main_call2_v0 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_7 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_8 : Ref sig .tc := ⟨.hbm, 132, rfl⟩
abbrev main_v85 : Ref sig .tc := ⟨.hbm, 133, rfl⟩
abbrev main_v86 : Ref sig .tc := ⟨.hbm, 134, rfl⟩
abbrev main_c_9 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_10 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_11 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_call3_cst : Ref sig .tc := ⟨.hbm, 154, rfl⟩
abbrev main_call3_v0 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_call4_cst : Ref sig .tc := ⟨.hbm, 161, rfl⟩
abbrev main_call4_v0 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_12 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_call5_cst : Ref sig .tc := ⟨.hbm, 184, rfl⟩
abbrev main_call5_v0 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S128 : S_.BroadcastsInDim S128 (![] : Fin 0 → Fin S128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel program's run with its final memory named.

  The program is three kernel regions among four stretches of host operations. Every weakly fair execution
  terminates, nothing faulting, in a state whose every unscoped buffer holds the last boundary's contents: the fold of
  the host stretches and of what each region's write-backs leave, from the launch memory. The result buffer and the
  argument buffers are among them.
-/
import proofs.«164471_j84344567759038_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The result buffer and the argument buffers after the run. -/
theorem run : θ_run defs (onTc (τ := τ) (main (F := F))) ⟨m, fun _ => 0, ρ⟩ (fun r => ∀ c : Dev nD,
      r.2.mem ((c.tc : Thread nD τ).loc main_v68) = W7 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun s h c =>
    ⟨h c _ (mem_uc main_v68 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c),
     (h c _ (mem_uc main_arg20 (by decide))).trans (W7_main_arg20 m ρ c),
     (h c _ (mem_uc main_arg21 (by decide))).trans (W7_main_arg21 m ρ c),
     (h c _ (mem_uc main_arg22 (by decide))).trans (W7_main_arg22 m ρ c),
     (h c _ (mem_uc main_arg23 (by decide))).trans (W7_main_arg23 m ρ c),
     (h c _ (mem_uc main_arg24 (by decide))).trans (W7_main_arg24 m ρ c),
     (h c _ (mem_uc main_arg25 (by decide))).trans (W7_main_arg25 m ρ c),
     (h c _ (mem_uc main_arg26 (by decide))).trans (W7_main_arg26 m ρ c),
     (h c _ (mem_uc main_arg27 (by decide))).trans (W7_main_arg27 m ρ c),
     (h c _ (mem_uc main_arg28 (by decide))).trans (W7_main_arg28 m ρ c),
     (h c _ (mem_uc main_arg29 (by decide))).trans (W7_main_arg29 m ρ c),
     (h c _ (mem_uc main_arg30 (by decide))).trans (W7_main_arg30 m ρ c)⟩)
    (run_all m ρ)

end Cert.KernelIdeal.Hand

end
-- ==== Proof.Spec.lean ====
/-
  The network's row functions on the extended reals.

  Every dense stage of the network acts on one node's feature row at a time. `aff x W b` is the affine map
  x ↦ x·W + b read at one output column; `relu` is the maximum with zero; `bn` is batch normalisation in
  evaluation mode, (h − m) · (v + ε)^(−1/2) · g + β, with ε the float literal both programs carry. The three
  multilayer stages are compositions of these: `rowA` (two affine maps, each followed by relu, then the
  normalisation), `rowB` (one affine map, relu, the normalisation) and `rowH` (`rowA`, then the head: an affine map,
  relu, and the final projection). `stage f a` applies a row function to every row of a matrix.
-/
import Idealize.ShloMosaic.PureOps.Ideal
import Idealize.ShloMosaic.Lib.ValueIdx

noncomputable section

open scoped BigOperators

namespace Cert.Gin

open Idealize.ShloMosaic Idealize.ShloMosaic.ValueIdx

/-- A matrix of extended reals, by index. -/
abbrev Mat (a b : Nat) : Type := (⟨2, ![a, b]⟩ : Shape).Idx → EReal
/-- A vector of extended reals, by index. -/
abbrev Vc (a : Nat) : Type := (⟨1, ![a]⟩ : Shape).Idx → EReal

/-- Column `j` of x·W + b. -/
def aff {K N : Nat} (x : Fin K → EReal) (W : Mat K N) (b : Vc N) (j : Fin N) : EReal :=
  (∑ k : Fin K, x k * W (ix2 k j)) + b (ix1 j)

/-- The maximum with (the float) zero. -/
def relu (x : EReal) : EReal := max x (Ideal.ofBits .f32 0x00000000#32)

/-- Batch normalisation of one entry from the running statistics. -/
def bn (h g be m v : EReal) : EReal :=
  (h - m) * Ideal.rsqrt (v + Ideal.ofBits .f32 0x3727C5AC#32) * g + be

/-- Two affine maps, each followed by relu, then the normalisation. -/
def rowA {K : Nat} (x : Fin K → EReal) (Wa : Mat K 128) (ba : Vc 128) (Wb : Mat 128 128) (bb g be m v : Vc 128)
    (j : Fin 128) : EReal :=
  bn (relu (aff (fun k => relu (aff x Wa ba k)) Wb bb j)) (g (ix1 j)) (be (ix1 j)) (m (ix1 j)) (v (ix1 j))

/-- One affine map, relu, then the normalisation. -/
def rowB (x : Fin 128 → EReal) (Wa : Mat 128 128) (ba g be m v : Vc 128) (j : Fin 128) : EReal :=
  bn (relu (aff x Wa ba j)) (g (ix1 j)) (be (ix1 j)) (m (ix1 j)) (v (ix1 j))

/-- `rowA`, then the head: an affine map, relu, and the final projection onto `N` columns. -/
def rowH {N : Nat} (x : Fin 128 → EReal) (Wa : Mat 128 128) (ba : Vc 128) (Wb : Mat 128 128) (bb g be m v : Vc 128)
    (Wl : Mat 128 128) (bl : Vc 128) (Wf : Mat 128 N) (bf : Vc N) (j : Fin N) : EReal :=
  aff (fun k => relu (aff (rowA x Wa ba Wb bb g be m v) Wl bl k)) Wf bf j

/-- A row function applied to every row of a matrix. -/
def stage {R K N : Nat} (f : (Fin K → EReal) → Fin N → EReal) (a : Mat R K) : Mat R N :=
  fun i => f (fun k => a (ix2 (i 0) k)) (i 1)

theorem stage_apply {R K N : Nat} (f : (Fin K → EReal) → Fin N → EReal) (a : Mat R K) (r : Fin R) (j : Fin N) :
    stage f a (ix2 r j) = f (fun k => a (ix2 r k)) j := rfl

/-- The projection onto a padded weight whose column 0 is the true weight's, read at column 0, is the true projection. -/
theorem aff_pad {K N : Nat} (hN : 0 < N) (x : Fin K → EReal) (W : Mat K N) (b : Vc N) (W' : Mat K 1) (b' : Vc 1)
    (hW : ∀ k, W (ix2 k ⟨0, hN⟩) = W' (ix2 k (0 : Fin 1))) (hb : b (ix1 ⟨0, hN⟩) = b' (ix1 (0 : Fin 1))) :
    aff x W b ⟨0, hN⟩ = aff x W' b' (0 : Fin 1) := by
  unfold aff
  rw [hb]
  exact congrArg (· + b' (ix1 (0 : Fin 1))) (Finset.sum_congr rfl fun k _ => by rw [hW k])

end Cert.Gin

end
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibRowOps.lean ====
/-
  Row-wise layout moves read at a matrix index, and the reciprocal square root read at an index.

  A bias vector enters a row-wise computation as one row spread over all rows: in a kernel body a length-b vector is
  cast to [1, b] and broadcast to [a, b]; on the host it is laid along axis 1 of [1, b] and broadcast over axis 0.
  Either way the entry at (p, q) is the vector's entry q. A reciprocal square root of a vector reads, at an index,
  the extended-real function of the operand's entry, for the vector unit's operation and for the host's alike.
-/
import Idealize.ShloMosaic.Lib.ValueLayout
import proofs.«164471_j84344567759038_1_alg».proof.Proof.LibIndexRead

noncomputable section

namespace Idealize.ShloMosaic.RowOps

open Idealize.ShloMosaic Idealize.ShloMosaic.ValueIdx

variable {α : Type}

/-- A vector cast to one row and broadcast over `a` rows reads, at (p, q), its entry q. -/
theorem bias_row {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- The host's spelling: laid along axis 1 of [1, b], then broadcast over axis 0. -/
theorem host_bias_row {a b : ℕ} (d1 : Fin (⟨1, ![b]⟩ : Shape).rank → Fin (⟨2, ![1, b]⟩ : Shape).rank)
    (h1 : (⟨1, ![b]⟩ : Shape).BroadcastsInDim ⟨2, ![1, b]⟩ d1) (hd1 : d1 = ![1])
    (d2 : Fin (⟨2, ![1, b]⟩ : Shape).rank → Fin (⟨2, ![a, b]⟩ : Shape).rank)
    (h2 : (⟨2, ![1, b]⟩ : Shape).BroadcastsInDim ⟨2, ![a, b]⟩ d2) (hd2 : d2 = ![0, 1])
    (v : (⟨1, ![b]⟩ : Shape).Idx → α) (p : Fin a) (q : Fin b) :
    broadcastInDim ⟨2, ![a, b]⟩ d2 h2 (broadcastInDim ⟨2, ![1, b]⟩ d1 h1 v) (ix2 p q) = v (ix1 q) :=
  (RowRead.broadcastInDim_1b_ab_apply d2 h2 hd2 _ p q).trans (RowRead.broadcastInDim_b_1b_apply d1 h1 hd1 v 0 q)

/-- An [a, 1] column cast to a length-a vector reads, at p, the column's entry of row p. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- The vector unit's reciprocal square root at an index. -/
theorem rsqrt_apply {s : Shape} {φ : FTy} (x : FVec Ideal s φ) (i : s.Idx) : rsqrt x i = Ideal.rsqrt (x i) := rfl

/-- The host's reciprocal square root at an index: the same function. -/
theorem host_rsqrt_apply {s : Shape} {φ : FTy} (x : FVec Ideal s φ) (i : s.Idx) : Host.rsqrt x i = Ideal.rsqrt (x i) := rfl

end Idealize.ShloMosaic.RowOps

end
-- ==== Proof.KPay.lean ====
/-
  The three kernel bodies, read at one entry of the output block.

  Each body computes its [4000, 128] output block row by row: entry (p, q) depends on row p of the input block alone.
  A matrix product into a zero accumulator is the sum over the contraction coordinate; a bias or statistics vector,
  cast to one row and broadcast, contributes its entry q; the narrowing to bf16 before a product is the identity on
  extended reals. So the first body's entry is `rowA` of the input row, the second's `rowB`, and the third's
  `rowH` with the padded projection.
-/
import proofs.«164471_j84344567759038_1_alg».proof.Proof.Gen.KernelIdeal.Skeleton
import proofs.«164471_j84344567759038_1_alg».proof.Proof.Spec
import proofs.«164471_j84344567759038_1_alg».proof.Proof.LibPlainDot
import proofs.«164471_j84344567759038_1_alg».proof.Proof.LibRowOps

noncomputable section

open scoped BigOperators

namespace Cert.KernelIdeal.Hand

open Cert.KernelIdeal Cert.KernelIdeal.Gen Cert.Gin
open Idealize.ShloMosaic Idealize.ShloMosaic.ValueIdx Idealize.ShloMosaic.PlainDot Idealize.ShloMosaic.RowOps

/-- The [4000, 64] × [64, 128] product's dimension numbers are the plain ones. -/
theorem dot64 : dot_S4000x64_S64x128_S4000x128_1_0_0_1_n_n = DotDims.plain 4000 64 128 := rfl
/-- The [4000, 128] × [128, 128] product's dimension numbers are the plain ones. -/
theorem dot128 : dot_S4000x128_S128x128_S4000x128_1_0_0_1_n_n = DotDims.plain 4000 128 128 := rfl

theorem mm64 (l : FVec Ideal S4000x64 .bf16) (r : FVec Ideal S64x128 .bf16) (p : Fin 4000) (q : Fin 128) :
    matmul dot_S4000x64_S64x128_S4000x128_1_0_0_1_n_n none l r (constant S4000x128 .f32 0x00000000#32) (ix2 p q)
      = ∑ k : Fin 64, l (ix2 p k) * r (ix2 k q) :=
  matmul_plain _ dot64 none l r p q

theorem mm128 (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) :=
  matmul_plain _ dot128 none l r p q

/-- The second body: one affine map, relu, the normalisation. -/
theorem pay_k1 (v0 : FVec Ideal S4000x128 .bf16) (v2 : FVec Ideal S128x128 .bf16) (v5 v11 v13 v15 v17 : FVec Ideal S128 .f32)
    (p : Fin 4000) (q : Fin 128) :
    k1_pay1 (F := Ideal) v0 v2 v5 v11 v13 v15 v17 (ix2 p q) = rowB (fun k => v0 (ix2 p k)) v2 v5 v11 v13 v15 v17 q := by
  unfold k1_pay1 rowB bn relu aff
  simp only [addf_apply, mulf_apply, subf_apply, maximumf_apply, broadcast_apply, shapeCast_self, bias_row,
    broadcastTo_1b_ab_apply, shapeCast_a_1a_apply, rsqrt_apply, mm128]
  rfl

/-- The first body: two affine maps, each followed by relu, then the normalisation. -/
theorem pay_k0 (v0 : FVec Ideal S4000x64 .bf16) (v2 : FVec Ideal S64x128 .bf16) (v5 : FVec Ideal S128 .f32)
    (v12 : FVec Ideal S128x128 .bf16) (v15 v21 v23 v25 v27 : FVec Ideal S128 .f32) (p : Fin 4000) (q : Fin 128) :
    k0_pay1 (F := Ideal) v0 v2 v5 v12 v15 v21 v23 v25 v27 (ix2 p q)
      = rowA (fun k => v0 (ix2 p k)) v2 v5 v12 v15 v21 v23 v25 v27 q := by
  unfold k0_pay1 rowA bn relu aff
  simp only [addf_apply, mulf_apply, subf_apply, maximumf_apply, broadcast_apply, truncf_apply, shapeCast_self, bias_row,
    broadcastTo_1b_ab_apply, shapeCast_a_1a_apply, rsqrt_apply, mm64, mm128]
  rfl

/-- The third body's first half: the same chain on a 128-wide input row, narrowed to bf16 (the identity). -/
theorem pay_k2a (v0 : FVec Ideal S4000x128 .bf16) (v2 : FVec Ideal S128x128 .bf16) (v5 : FVec Ideal S128 .f32)
    (v12 : FVec Ideal S128x128 .bf16) (v15 v21 v23 v25 v27 : FVec Ideal S128 .f32) (p : Fin 4000) (q : Fin 128) :
    k2_pay2 (F := Ideal) v0 v2 v5 v12 v15 v21 v23 v25 v27 (ix2 p q)
      = rowA (fun k => v0 (ix2 p k)) v2 v5 v12 v15 v21 v23 v25 v27 q := by
  unfold k2_pay2 rowA bn relu aff
  simp only [addf_apply, mulf_apply, subf_apply, maximumf_apply, broadcast_apply, truncf_apply, shapeCast_self, bias_row,
    broadcastTo_1b_ab_apply, shapeCast_a_1a_apply, rsqrt_apply, mm128]
  rfl

/-- The third body's second half, the head: an affine map, relu, and the projection. -/
theorem pay_k2b (v40 : FVec Ideal S4000x128 .bf16) (v41 : FVec Ideal S128x128 .bf16) (v44 : FVec Ideal S128 .f32)
    (v51 : FVec Ideal S128x128 .bf16) (v54 : FVec Ideal S128 .f32) (p : Fin 4000) (q : Fin 128) :
    k2_pay1 (F := Ideal) v40 v41 v44 v51 v54 (ix2 p q)
      = aff (fun k => relu (aff (fun k' => v40 (ix2 p k')) v41 v44 k)) v51 v54 q := by
  unfold k2_pay1 relu aff
  simp only [addf_apply, maximumf_apply, broadcast_apply, truncf_apply, shapeCast_self, bias_row, mm128]
  rfl

/-- The third body whole. -/
theorem pay_k2 (v0 : FVec Ideal S4000x128 .bf16) (v2 : FVec Ideal S128x128 .bf16) (v5 : FVec Ideal S128 .f32)
    (v12 : FVec Ideal S128x128 .bf16) (v15 v21 v23 v25 v27 : FVec Ideal S128 .f32)
    (v41 : FVec Ideal S128x128 .bf16) (v44 : FVec Ideal S128 .f32) (v51 : FVec Ideal S128x128 .bf16) (v54 : FVec Ideal S128 .f32)
    (p : Fin 4000) (q : Fin 128) :
    k2_pay1 (F := Ideal) (k2_pay2 (F := Ideal) v0 v2 v5 v12 v15 v21 v23 v25 v27) v41 v44 v51 v54 (ix2 p q)
      = rowH (fun k => v0 (ix2 p k)) v2 v5 v12 v15 v21 v23 v25 v27 v41 v44 v51 v54 q := by
  rw [pay_k2b]
  unfold rowH
  simp only [pay_k2a]

end Cert.KernelIdeal.Hand

end
-- ==== Proof.KBlocks0.lean ====
/-
  The first region's output array as one function of the arrays the region finds.

  The region's grid has 25 points; point t reads rows 4000·t … 4000·t + 3999 of the node-feature matrix and the whole
  of every weight, bias and statistics array, and writes back rows 4000·t … 4000·t + 3999 of the output. Entry (p, q) of
  the block written at t is `rowA` of row p of the input block, which is row 4000·t + p of the matrix: so every
  write-back is a block of the one function `stage rowA` of the arrays, and the 25 blocks cover the output.
-/
import proofs.«164471_j84344567759038_1_alg».proof.Proof.Gen.KernelIdeal.Frame
import proofs.«164471_j84344567759038_1_alg».proof.Proof.KPay
import Idealize.ShloMosaic.Lib.Pipeline.Value

set_option maxRecDepth 16384

noncomputable section

namespace Cert.KernelIdeal.Hand

open Cert.KernelIdeal Cert.KernelIdeal.Gen Cert.Gin
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The output array of region 0 as a function of the arrays at the region's entry. -/
def G0 (c : Dev nD) : Buf (Elt Ideal) ((c : Thread nD τ).loc main_v21) :=
  stage (fun x => rowA x (V c main_v19) (V c main_arg4) (V c main_v20) (V c main_arg6) (V c main_arg7) (V c main_arg8)
    (V c main_arg9) (V c main_arg10)) (V c main_v18)

/-- The printed index maps over the grid: the row windows move with the point, every other block index is zero. -/
theorem idx_facts0 : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0 :=
  (by decide +kernel : ∀ t : Fin grid0.N, _)

/-- The input row block at point t is rows 4000·t … of the matrix. -/
theorem iblk0_0 (c : Dev nD) (t : Fin cfg0.N) (p : Fin 4000) (k : Fin 64) (r : Fin 100000) (hr : r.val = t.val * 4000 + p.val) :
    iblk0 V c 0 t (ix2 p k) = (V c main_v18 : S100000x64.Idx → EReal) (ix2 r k) := by
  obtain ⟨e0, e1, -⟩ := idx_facts0 t
  show V c main_v18 (((cfg0.win 0).blk t).view.emb (ix2 p k)) = _
  refine congrArg _ (funext fun a => Fin.ext ?_)
  match a with
  | ⟨0, _⟩ => show win0_0.index t (0 : Fin 2) * 4000 + 1 * p.val = r.val; rw [e0, hr]; omega
  | ⟨1, _⟩ => show win0_0.index t (1 : Fin 2) * 64 + 1 * k.val = k.val; rw [e1]; omega

theorem iblk0_1 (c : Dev nD) (t : Fin cfg0.N) : iblk0 V c 1 t = (V c main_v19 : S64x128.Idx → EReal) := by
  obtain ⟨-, -, -, -, e0, e1, -⟩ := idx_facts0 t
  funext y
  show V c main_v19 (((cfg0.win 1).blk t).view.emb y) = _
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

theorem iblk0_2 (c : Dev nD) (t : Fin cfg0.N) : iblk0 V c 2 t = (V c main_arg4 : S128.Idx → EReal) := by
  obtain ⟨-, -, -, -, -, -, e0, -⟩ := idx_facts0 t
  funext y
  show V c main_arg4 (((cfg0.win 2).blk t).view.emb y) = _
  refine congrArg _ (funext fun a => Fin.ext ?_)
  match a with
  | ⟨0, _⟩ => show win0_2.index t (0 : Fin 1) * 128 + 1 * (y 0).val = (y 0).val; rw [e0]; omega

theorem iblk0_3 (c : Dev nD) (t : Fin cfg0.N) : iblk0 V c 3 t = (V c main_v20 : S128x128.Idx → EReal) := by
  obtain ⟨-, -, -, -, -, -, -, e0, e1, -⟩ := idx_facts0 t
  funext y
  show V c main_v20 (((cfg0.win 3).blk t).view.emb y) = _
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem iblk0_4 (c : Dev nD) (t : Fin cfg0.N) : iblk0 V c 4 t = (V c main_arg6 : S128.Idx → EReal) := by
  obtain ⟨-, -, -, -, -, -, -, -, -, e0, -⟩ := idx_facts0 t
  funext y
  show V c main_arg6 (((cfg0.win 4).blk t).view.emb y) = _
  refine congrArg _ (funext fun a => Fin.ext ?_)
  match a with
  | ⟨0, _⟩ => show win0_4.index t (0 : Fin 1) * 128 + 1 * (y 0).val = (y 0).val; rw [e0]; omega

theorem iblk0_5 (c : Dev nD) (t : Fin cfg0.N) : iblk0 V c 5 t = (V c main_arg7 : S128.Idx → EReal) := by
  obtain ⟨-, -, -, -, -, -, -, -, -, -, e0, -⟩ := idx_facts0 t
  funext y
  show V c main_arg7 (((cfg0.win 5).blk t).view.emb y) = _
  refine congrArg _ (funext fun a => Fin.ext ?_)
  match a with
  | ⟨0, _⟩ => show win0_5.index t (0 : Fin 1) * 128 + 1 * (y 0).val = (y 0).val; rw [e0]; omega

theorem iblk0_6 (c : Dev nD) (t : Fin cfg0.N) : iblk0 V c 6 t = (V c main_arg8 : S128.Idx → EReal) := by
  obtain ⟨-, -, -, -, -, -, -, -, -, -, -, e0, -⟩ := idx_facts0 t
  funext y
  show V c main_arg8 (((cfg0.win 6).blk t).view.emb y) = _
  refine congrArg _ (funext fun a => Fin.ext ?_)
  match a with
  | ⟨0, _⟩ => show win0_6.index t (0 : Fin 1) * 128 + 1 * (y 0).val = (y 0).val; rw [e0]; omega

theorem iblk0_7 (c : Dev nD) (t : Fin cfg0.N) : iblk0 V c 7 t = (V c main_arg9 : S128.Idx → EReal) := by
  obtain ⟨-, -, -, -, -, -, -, -, -, -, -, -, e0, -⟩ := idx_facts0 t
  funext y
  show V c main_arg9 (((cfg0.win 7).blk t).view.emb y) = _
  refine congrArg _ (funext fun a => Fin.ext ?_)
  match a with
  | ⟨0, _⟩ => show win0_7.index t (0 : Fin 1) * 128 + 1 * (y 0).val = (y 0).val; rw [e0]; omega

theorem iblk0_8 (c : Dev nD) (t : Fin cfg0.N) : iblk0 V c 8 t = (V c main_arg10 : S128.Idx → EReal) := by
  obtain ⟨-, -, -, -, -, -, -, -, -, -, -, -, -, e0⟩ := idx_facts0 t
  funext y
  show V c main_arg10 (((cfg0.win 8).blk t).view.emb y) = _
  refine congrArg _ (funext fun a => Fin.ext ?_)
  match a with
  | ⟨0, _⟩ => show win0_8.index t (0 : Fin 1) * 128 + 1 * (y 0).val = (y 0).val; rw [e0]; omega

/-- What point t writes back is block t of `G0`. -/
theorem flushed0_eq (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz2]
  simp only [View.ld_unit_zero (S := S4000x64) hz2, View.ld_unit_zero (S := S64x128) hz2,
    View.ld_unit_zero (S := S128) hz1, View.ld_unit_zero (S := S128x128) hz2]
  rw [iblk0_1, iblk0_2, iblk0_3, iblk0_4, iblk0_5, iblk0_6, iblk0_7, iblk0_8]
  obtain ⟨-, -, e0, e1, -⟩ := idx_facts0 t
  funext j
  have hj0 : (j 0).val < 4000 := (j 0).isLt
  have hj1 : (j 1).val < 128 := (j 1).isLt
  have hN : t.val < 25 := Nat.lt_of_lt_of_eq t.isLt (show cfg0.N = 25 from N_0)
  show k0_pay1 (F := Ideal) (iblk0 V c 0 t) (V c main_v19) (V c main_arg4) (V c main_v20) (V c main_arg6) (V c main_arg7)
      (V c main_arg8) (V c main_arg9) (V c main_arg10) j = G0 V c (((cfg0.win 9).blk t).view.emb j)
  have ej : (j : S4000x128.Idx) = ix2 ⟨(j 0).val, hj0⟩ ⟨(j 1).val, hj1⟩ := funext fun a => by
    match a with | ⟨0, _⟩ => rfl | ⟨1, _⟩ => rfl
  have ee : ((cfg0.win 9).blk t).view.emb j
      = (ix2 (⟨t.val * 4000 + (j 0).val, by omega⟩ : Fin 100000) (⟨(j 1).val, hj1⟩ : Fin 128) : S100000x128.Idx) :=
    funext fun a => Fin.ext (by
      match a with
      | ⟨0, _⟩ => show win0_9.index t (0 : Fin 2) * 4000 + 1 * (j 0).val = t.val * 4000 + (j 0).val; rw [e0]; omega
      | ⟨1, _⟩ => show win0_9.index t (1 : Fin 2) * 128 + 1 * (j 1).val = (j 1).val; rw [e1]; omega)
  rw [ee]
  refine (congrArg _ ej).trans ?_
  refine (pay_k0 _ _ _ _ _ _ _ _ _ ⟨(j 0).val, hj0⟩ ⟨(j 1).val, hj1⟩).trans ?_
  unfold G0
  rw [stage_apply]
  refine congrArg (fun x => rowA x _ _ _ _ _ _ _ _ _) (funext fun k => ?_)
  exact iblk0_0 V c t ⟨(j 0).val, hj0⟩ k ⟨t.val * 4000 + (j 0).val, by omega⟩ rfl

/-- The 25 row blocks cover the output array. -/
theorem cover0 (c : Dev nD) (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, e0, e1, -⟩ := idx_facts0 ⟨(i 0).val / 4000, ht⟩
  refine ⟨⟨(i 0).val / 4000, ht⟩, flush0_9 _, ?_⟩
  show i ∈ ((View.whole main_v21).slice (win0_9.rect ⟨(i 0).val / 4000, ht⟩)).set
  rw [View.set_slice_whole, Rect.mem_set_unit]
  intro a
  match a with
  | ⟨0, _⟩ =>
    show win0_9.index ⟨(i 0).val / 4000, ht⟩ (0 : Fin 2) * 4000 ≤ (i 0).val
      ∧ (i 0).val < win0_9.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_9.index ⟨(i 0).val / 4000, ht⟩ (1 : Fin 2) * 128 ≤ (i 1).val
      ∧ (i 1).val < win0_9.index ⟨(i 0).val / 4000, ht⟩ (1 : Fin 2) * 128 + 128
    rw [e1]; omega

/-- The output array after the region. -/
theorem final0 (c : Dev nD) : (dat0 V c).arrAt 9 cfg0.N = G0 V c :=
  (dat0 V c).arrAt_eq_of_cover 9 (G0 V c) (fun t _ => flushed0_eq V c t) (cover0 c)

end Cert.KernelIdeal.Hand

end
-- ==== Proof.KBlocks1.lean ====
/-
  The second region's output array as one function of the arrays the region finds.

  As in the first region, point t reads rows 4000·t … 4000·t + 3999 of its input matrix and the whole of the weight,
  bias and statistics arrays, and writes back the same rows of the output; entry (p, q) of the block is `rowB` of row p
  of the input block. The write-backs are blocks of `stage rowB` of the arrays and cover the output.
-/
import proofs.«164471_j84344567759038_1_alg».proof.Proof.Gen.KernelIdeal.Frame
import proofs.«164471_j84344567759038_1_alg».proof.Proof.KPay
import proofs.«164471_j84344567759038_1_alg».proof.Proof.KBlocks0
import Idealize.ShloMosaic.Lib.Pipeline.Value

set_option maxRecDepth 16384

noncomputable section

namespace Cert.KernelIdeal.Hand

open Cert.KernelIdeal Cert.KernelIdeal.Gen Cert.Gin
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The output array of region 1 as a function of the arrays at the region's entry. -/
def G1 (c : Dev nD) : Buf (Elt Ideal) ((c : Thread nD τ).loc main_v38) :=
  stage (fun x => rowB x (V c main_v37) (V c main_arg13) (V c main_arg14) (V c main_arg15) (V c main_arg16) (V c main_arg17)) (V c main_v36)

/-- The printed index maps over the grid: the row windows move with the point, every other block index is zero. -/
theorem idx_facts1 : ∀ t : Fin cfg1.N, win1_0.index t (0 : Fin 2) = t.val
    ∧ win1_0.index t (1 : Fin 2) = 0
    ∧ win1_7.index t (0 : Fin 2) = t.val
    ∧ win1_7.index t (1 : Fin 2) = 0
    ∧ win1_1.index t (0 : Fin 2) = 0
    ∧ win1_1.index t (1 : Fin 2) = 0
    ∧ win1_2.index t (0 : Fin 1) = 0
    ∧ win1_3.index t (0 : Fin 1) = 0
    ∧ win1_4.index t (0 : Fin 1) = 0
    ∧ win1_5.index t (0 : Fin 1) = 0
    ∧ win1_6.index t (0 : Fin 1) = 0 :=
  (by decide +kernel : ∀ t : Fin grid1.N, _)

/-- The input row block at point t is rows 4000·t … of the matrix. -/
theorem iblk1_0 (c : Dev nD) (t : Fin cfg1.N) (p : Fin 4000) (k : Fin 128) (r : Fin 100000) (hr : r.val = t.val * 4000 + p.val) :
    iblk1 V c 0 t (ix2 p k) = (V c main_v36 : S100000x128.Idx → EReal) (ix2 r k) := by
  obtain ⟨e0, e1, -⟩ := idx_facts1 t
  show V c main_v36 (((cfg1.win 0).blk t).view.emb (ix2 p k)) = _
  refine congrArg _ (funext fun a => Fin.ext ?_)
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

theorem iblk1_1 (c : Dev nD) (t : Fin cfg1.N) : iblk1 V c 1 t = (V c main_v37 : S128x128.Idx → EReal) := by
  obtain ⟨-, -, -, -, e0, e1, -⟩ := idx_facts1 t
  funext y
  show V c main_v37 (((cfg1.win 1).blk t).view.emb y) = _
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

theorem iblk1_2 (c : Dev nD) (t : Fin cfg1.N) : iblk1 V c 2 t = (V c main_arg13 : S128.Idx → EReal) := by
  obtain ⟨-, -, -, -, -, -, e0, -⟩ := idx_facts1 t
  funext y
  show V c main_arg13 (((cfg1.win 2).blk t).view.emb y) = _
  refine congrArg _ (funext fun a => Fin.ext ?_)
  match a with
  | ⟨0, _⟩ => show win1_2.index t (0 : Fin 1) * 128 + 1 * (y 0).val = (y 0).val; rw [e0]; omega

theorem iblk1_3 (c : Dev nD) (t : Fin cfg1.N) : iblk1 V c 3 t = (V c main_arg14 : S128.Idx → EReal) := by
  obtain ⟨-, -, -, -, -, -, -, e0, -⟩ := idx_facts1 t
  funext y
  show V c main_arg14 (((cfg1.win 3).blk t).view.emb y) = _
  refine congrArg _ (funext fun a => Fin.ext ?_)
  match a with
  | ⟨0, _⟩ => show win1_3.index t (0 : Fin 1) * 128 + 1 * (y 0).val = (y 0).val; rw [e0]; omega

theorem iblk1_4 (c : Dev nD) (t : Fin cfg1.N) : iblk1 V c 4 t = (V c main_arg15 : S128.Idx → EReal) := by
  obtain ⟨-, -, -, -, -, -, -, -, e0, -⟩ := idx_facts1 t
  funext y
  show V c main_arg15 (((cfg1.win 4).blk t).view.emb y) = _
  refine congrArg _ (funext fun a => Fin.ext ?_)
  match a with
  | ⟨0, _⟩ => show win1_4.index t (0 : Fin 1) * 128 + 1 * (y 0).val = (y 0).val; rw [e0]; omega

theorem iblk1_5 (c : Dev nD) (t : Fin cfg1.N) : iblk1 V c 5 t = (V c main_arg16 : S128.Idx → EReal) := by
  obtain ⟨-, -, -, -, -, -, -, -, -, e0, -⟩ := idx_facts1 t
  funext y
  show V c main_arg16 (((cfg1.win 5).blk t).view.emb y) = _
  refine congrArg _ (funext fun a => Fin.ext ?_)
  match a with
  | ⟨0, _⟩ => show win1_5.index t (0 : Fin 1) * 128 + 1 * (y 0).val = (y 0).val; rw [e0]; omega

theorem iblk1_6 (c : Dev nD) (t : Fin cfg1.N) : iblk1 V c 6 t = (V c main_arg17 : S128.Idx → EReal) := by
  obtain ⟨-, -, -, -, -, -, -, -, -, -, e0⟩ := idx_facts1 t
  funext y
  show V c main_arg17 (((cfg1.win 6).blk t).view.emb y) = _
  refine congrArg _ (funext fun a => Fin.ext ?_)
  match a with
  | ⟨0, _⟩ => show win1_6.index t (0 : Fin 1) * 128 + 1 * (y 0).val = (y 0).val; rw [e0]; omega

/-- What point t writes back is block t of `G1`. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2]
  simp only [View.ld_unit_zero (S := S128x128) hz2, View.ld_unit_zero (S := S128) hz1, View.ld_unit_zero (S := S4000x128) hz2]
  rw [iblk1_1, iblk1_2, iblk1_3, iblk1_4, iblk1_5, iblk1_6]
  obtain ⟨-, -, e0, e1, -⟩ := idx_facts1 t
  funext j
  have hj0 : (j 0).val < 4000 := (j 0).isLt
  have hj1 : (j 1).val < 128 := (j 1).isLt
  have hN : t.val < 25 := Nat.lt_of_lt_of_eq t.isLt (show cfg1.N = 25 from N_1)
  show k1_pay1 (F := Ideal) (iblk1 V c 0 t) (V c main_v37) (V c main_arg13) (V c main_arg14) (V c main_arg15) (V c main_arg16) (V c main_arg17) j = G1 V c (((cfg1.win 7).blk t).view.emb j)
  have ej : (j : S4000x128.Idx) = ix2 ⟨(j 0).val, hj0⟩ ⟨(j 1).val, hj1⟩ := funext fun a => by
    match a with | ⟨0, _⟩ => rfl | ⟨1, _⟩ => rfl
  have ee : ((cfg1.win 7).blk t).view.emb j
      = (ix2 (⟨t.val * 4000 + (j 0).val, by omega⟩ : Fin 100000) (⟨(j 1).val, hj1⟩ : Fin 128) : S100000x128.Idx) :=
    funext fun a => Fin.ext (by
      match a with
      | ⟨0, _⟩ => show win1_7.index t (0 : Fin 2) * 4000 + 1 * (j 0).val = t.val * 4000 + (j 0).val; rw [e0]; omega
      | ⟨1, _⟩ => show win1_7.index t (1 : Fin 2) * 128 + 1 * (j 1).val = (j 1).val; rw [e1]; omega)
  rw [ee]
  refine (congrArg _ ej).trans ?_
  refine (pay_k1 _ _ _ _ _ _ _ ⟨(j 0).val, hj0⟩ ⟨(j 1).val, hj1⟩).trans ?_
  unfold G1
  rw [stage_apply]
  refine congrArg (fun x => rowB x _ _ _ _ _ _ _) (funext fun k => ?_)
  exact iblk1_0 V c t ⟨(j 0).val, hj0⟩ k ⟨t.val * 4000 + (j 0).val, by omega⟩ rfl

/-- The 25 row blocks cover the output array. -/
theorem cover1 (c : Dev nD) (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 25 := N_1
  have ht : (i 0).val / 4000 < cfg1.N := by rw [hN]; omega
  obtain ⟨-, -, e0, e1, -⟩ := idx_facts1 ⟨(i 0).val / 4000, ht⟩
  refine ⟨⟨(i 0).val / 4000, ht⟩, flush1_7 _, ?_⟩
  show i ∈ ((View.whole main_v38).slice (win1_7.rect ⟨(i 0).val / 4000, ht⟩)).set
  rw [View.set_slice_whole, Rect.mem_set_unit]
  intro a
  match a with
  | ⟨0, _⟩ =>
    show win1_7.index ⟨(i 0).val / 4000, ht⟩ (0 : Fin 2) * 4000 ≤ (i 0).val
      ∧ (i 0).val < win1_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, ht⟩ (1 : Fin 2) * 128 ≤ (i 1).val
      ∧ (i 1).val < win1_7.index ⟨(i 0).val / 4000, ht⟩ (1 : Fin 2) * 128 + 128
    rw [e1]; omega

/-- The output array after the region. -/
theorem final1 (c : Dev nD) : (dat1 V c).arrAt 7 cfg1.N = G1 V c :=
  (dat1 V c).arrAt_eq_of_cover 7 (G1 V c) (fun t _ => flushed1_eq V c t) (cover1 c)

end Cert.KernelIdeal.Hand

end
-- ==== Proof.KBlocks2.lean ====
/-
  The third region's output array as one function of the arrays the region finds.

  Point t reads rows 4000·t … 4000·t + 3999 of its input matrix and the whole of every weight, bias and statistics
  array, the padded projection weight and bias among them, and writes back the same rows of the output; entry (p, q)
  of the block is `rowH` of row p of the input block. The write-backs are blocks of `stage rowH` of the arrays and
  cover the output.
-/
import proofs.«164471_j84344567759038_1_alg».proof.Proof.Gen.KernelIdeal.Frame
import proofs.«164471_j84344567759038_1_alg».proof.Proof.KPay
import proofs.«164471_j84344567759038_1_alg».proof.Proof.KBlocks0
import Idealize.ShloMosaic.Lib.Pipeline.Value

set_option maxRecDepth 16384

noncomputable section

namespace Cert.KernelIdeal.Hand

open Cert.KernelIdeal Cert.KernelIdeal.Gen Cert.Gin
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The output array of region 2 as a function of the arrays at the region's entry. -/
def G2 (c : Dev nD) : Buf (Elt Ideal) ((c : Thread nD τ).loc main_v66) :=
  stage (fun x => rowH x (V c main_v63) (V c main_arg20) (V c main_v64) (V c main_arg22) (V c main_arg23) (V c main_arg24) (V c main_arg25) (V c main_arg26) (V c main_v65) (V c main_arg28) (V c main_v57) (V c main_v61)) (V c main_v62)

/-- The printed index maps over the grid: the row windows move with the point, every other block index is zero. -/
theorem idx_facts2 : ∀ t : Fin cfg2.N, win2_0.index t (0 : Fin 2) = t.val
    ∧ win2_0.index t (1 : Fin 2) = 0
    ∧ win2_13.index t (0 : Fin 2) = t.val
    ∧ win2_13.index t (1 : Fin 2) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 1) = 0
    ∧ win2_5.index t (0 : Fin 1) = 0
    ∧ win2_6.index t (0 : Fin 1) = 0
    ∧ win2_7.index t (0 : Fin 1) = 0
    ∧ win2_8.index t (0 : Fin 1) = 0
    ∧ win2_9.index t (0 : Fin 2) = 0
    ∧ win2_9.index t (1 : Fin 2) = 0
    ∧ win2_10.index t (0 : Fin 1) = 0
    ∧ win2_11.index t (0 : Fin 2) = 0
    ∧ win2_11.index t (1 : Fin 2) = 0
    ∧ win2_12.index t (0 : Fin 1) = 0 :=
  (by decide +kernel : ∀ t : Fin grid2.N, _)

/-- The input row block at point t is rows 4000·t … of the matrix. -/
theorem iblk2_0 (c : Dev nD) (t : Fin cfg2.N) (p : Fin 4000) (k : Fin 128) (r : Fin 100000) (hr : r.val = t.val * 4000 + p.val) :
    iblk2 V c 0 t (ix2 p k) = (V c main_v62 : S100000x128.Idx → EReal) (ix2 r k) := by
  obtain ⟨e0, e1, -⟩ := idx_facts2 t
  show V c main_v62 (((cfg2.win 0).blk t).view.emb (ix2 p k)) = _
  refine congrArg _ (funext fun a => Fin.ext ?_)
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

theorem iblk2_1 (c : Dev nD) (t : Fin cfg2.N) : iblk2 V c 1 t = (V c main_v63 : S128x128.Idx → EReal) := by
  obtain ⟨-, -, -, -, e0, e1, -⟩ := idx_facts2 t
  funext y
  show V c main_v63 (((cfg2.win 1).blk t).view.emb y) = _
  refine congrArg _ (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

theorem iblk2_2 (c : Dev nD) (t : Fin cfg2.N) : iblk2 V c 2 t = (V c main_arg20 : S128.Idx → EReal) := by
  obtain ⟨-, -, -, -, -, -, e0, -⟩ := idx_facts2 t
  funext y
  show V c main_arg20 (((cfg2.win 2).blk t).view.emb y) = _
  refine congrArg _ (funext fun a => Fin.ext ?_)
  match a with
  | ⟨0, _⟩ => show win2_2.index t (0 : Fin 1) * 128 + 1 * (y 0).val = (y 0).val; rw [e0]; omega

theorem iblk2_3 (c : Dev nD) (t : Fin cfg2.N) : iblk2 V c 3 t = (V c main_v64 : S128x128.Idx → EReal) := by
  obtain ⟨-, -, -, -, -, -, -, e0, e1, -⟩ := idx_facts2 t
  funext y
  show V c main_v64 (((cfg2.win 3).blk t).view.emb y) = _
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem iblk2_4 (c : Dev nD) (t : Fin cfg2.N) : iblk2 V c 4 t = (V c main_arg22 : S128.Idx → EReal) := by
  obtain ⟨-, -, -, -, -, -, -, -, -, e0, -⟩ := idx_facts2 t
  funext y
  show V c main_arg22 (((cfg2.win 4).blk t).view.emb y) = _
  refine congrArg _ (funext fun a => Fin.ext ?_)
  match a with
  | ⟨0, _⟩ => show win2_4.index t (0 : Fin 1) * 128 + 1 * (y 0).val = (y 0).val; rw [e0]; omega

theorem iblk2_5 (c : Dev nD) (t : Fin cfg2.N) : iblk2 V c 5 t = (V c main_arg23 : S128.Idx → EReal) := by
  obtain ⟨-, -, -, -, -, -, -, -, -, -, e0, -⟩ := idx_facts2 t
  funext y
  show V c main_arg23 (((cfg2.win 5).blk t).view.emb y) = _
  refine congrArg _ (funext fun a => Fin.ext ?_)
  match a with
  | ⟨0, _⟩ => show win2_5.index t (0 : Fin 1) * 128 + 1 * (y 0).val = (y 0).val; rw [e0]; omega

theorem iblk2_6 (c : Dev nD) (t : Fin cfg2.N) : iblk2 V c 6 t = (V c main_arg24 : S128.Idx → EReal) := by
  obtain ⟨-, -, -, -, -, -, -, -, -, -, -, e0, -⟩ := idx_facts2 t
  funext y
  show V c main_arg24 (((cfg2.win 6).blk t).view.emb y) = _
  refine congrArg _ (funext fun a => Fin.ext ?_)
  match a with
  | ⟨0, _⟩ => show win2_6.index t (0 : Fin 1) * 128 + 1 * (y 0).val = (y 0).val; rw [e0]; omega

theorem iblk2_7 (c : Dev nD) (t : Fin cfg2.N) : iblk2 V c 7 t = (V c main_arg25 : S128.Idx → EReal) := by
  obtain ⟨-, -, -, -, -, -, -, -, -, -, -, -, e0, -⟩ := idx_facts2 t
  funext y
  show V c main_arg25 (((cfg2.win 7).blk t).view.emb y) = _
  refine congrArg _ (funext fun a => Fin.ext ?_)
  match a with
  | ⟨0, _⟩ => show win2_7.index t (0 : Fin 1) * 128 + 1 * (y 0).val = (y 0).val; rw [e0]; omega

theorem iblk2_8 (c : Dev nD) (t : Fin cfg2.N) : iblk2 V c 8 t = (V c main_arg26 : S128.Idx → EReal) := by
  obtain ⟨-, -, -, -, -, -, -, -, -, -, -, -, -, e0, -⟩ := idx_facts2 t
  funext y
  show V c main_arg26 (((cfg2.win 8).blk t).view.emb y) = _
  refine congrArg _ (funext fun a => Fin.ext ?_)
  match a with
  | ⟨0, _⟩ => show win2_8.index t (0 : Fin 1) * 128 + 1 * (y 0).val = (y 0).val; rw [e0]; omega

theorem iblk2_9 (c : Dev nD) (t : Fin cfg2.N) : iblk2 V c 9 t = (V c main_v65 : S128x128.Idx → EReal) := by
  obtain ⟨-, -, -, -, -, -, -, -, -, -, -, -, -, -, e0, e1, -⟩ := idx_facts2 t
  funext y
  show V c main_v65 (((cfg2.win 9).blk t).view.emb y) = _
  refine congrArg _ (funext fun a => Fin.ext ?_)
  match a with
  | ⟨0, _⟩ => show win2_9.index t (0 : Fin 2) * 128 + 1 * (y 0).val = (y 0).val; rw [e0]; omega
  | ⟨1, _⟩ => show win2_9.index t (1 : Fin 2) * 128 + 1 * (y 1).val = (y 1).val; rw [e1]; omega

theorem iblk2_10 (c : Dev nD) (t : Fin cfg2.N) : iblk2 V c 10 t = (V c main_arg28 : S128.Idx → EReal) := by
  obtain ⟨-, -, -, -, -, -, -, -, -, -, -, -, -, -, -, -, e0, -⟩ := idx_facts2 t
  funext y
  show V c main_arg28 (((cfg2.win 10).blk t).view.emb y) = _
  refine congrArg _ (funext fun a => Fin.ext ?_)
  match a with
  | ⟨0, _⟩ => show win2_10.index t (0 : Fin 1) * 128 + 1 * (y 0).val = (y 0).val; rw [e0]; omega

theorem iblk2_11 (c : Dev nD) (t : Fin cfg2.N) : iblk2 V c 11 t = (V c main_v57 : S128x128.Idx → EReal) := by
  obtain ⟨-, -, -, -, -, -, -, -, -, -, -, -, -, -, -, -, -, e0, e1, -⟩ := idx_facts2 t
  funext y
  show V c main_v57 (((cfg2.win 11).blk t).view.emb y) = _
  refine congrArg _ (funext fun a => Fin.ext ?_)
  match a with
  | ⟨0, _⟩ => show win2_11.index t (0 : Fin 2) * 128 + 1 * (y 0).val = (y 0).val; rw [e0]; omega
  | ⟨1, _⟩ => show win2_11.index t (1 : Fin 2) * 128 + 1 * (y 1).val = (y 1).val; rw [e1]; omega

theorem iblk2_12 (c : Dev nD) (t : Fin cfg2.N) : iblk2 V c 12 t = (V c main_v61 : S128.Idx → EReal) := by
  obtain ⟨-, -, -, -, -, -, -, -, -, -, -, -, -, -, -, -, -, -, -, e0⟩ := idx_facts2 t
  funext y
  show V c main_v61 (((cfg2.win 12).blk t).view.emb y) = _
  refine congrArg _ (funext fun a => Fin.ext ?_)
  match a with
  | ⟨0, _⟩ => show win2_12.index t (0 : Fin 1) * 128 + 1 * (y 0).val = (y 0).val; rw [e0]; omega

set_option maxHeartbeats 4000000 in
/-- What point t writes back is block t of `G2`. -/
theorem flushed2_eq (c : Dev nD) (t : Fin cfg2.N) :
    (dat2 V c).flushed 13 t = ((cfg2.win 13).blk t).view.read (Elt Ideal) (G2 V c) := by
  show (cfg2.win 13).cut (grid2.coords t) ((dat2 V c).after 13 t) = _
  rw [after2_13]
  unfold out2_13
  rw [View.canon_unit_zero hz2]
  simp only [View.ld_unit_zero (S := S128x128) hz2, View.ld_unit_zero (S := S128) hz1, View.ld_unit_zero (S := S4000x128) hz2]
  rw [iblk2_1, iblk2_2, iblk2_3, iblk2_4, iblk2_5, iblk2_6, iblk2_7, iblk2_8, iblk2_9, iblk2_10, iblk2_11, iblk2_12]
  obtain ⟨-, -, e0, e1, -⟩ := idx_facts2 t
  funext j
  have hj0 : (j 0).val < 4000 := (j 0).isLt
  have hj1 : (j 1).val < 128 := (j 1).isLt
  have hN : t.val < 25 := Nat.lt_of_lt_of_eq t.isLt (show cfg2.N = 25 from N_2)
  show k2_pay1 (F := Ideal) (k2_pay2 (F := Ideal) (iblk2 V c 0 t) (V c main_v63) (V c main_arg20) (V c main_v64) (V c main_arg22) (V c main_arg23) (V c main_arg24) (V c main_arg25) (V c main_arg26)) (V c main_v65) (V c main_arg28) (V c main_v57) (V c main_v61) j = G2 V c (((cfg2.win 13).blk t).view.emb j)
  have ej : (j : S4000x128.Idx) = ix2 ⟨(j 0).val, hj0⟩ ⟨(j 1).val, hj1⟩ := funext fun a => by
    match a with | ⟨0, _⟩ => rfl | ⟨1, _⟩ => rfl
  have ee : ((cfg2.win 13).blk t).view.emb j
      = (ix2 (⟨t.val * 4000 + (j 0).val, by omega⟩ : Fin 100000) (⟨(j 1).val, hj1⟩ : Fin 128) : S100000x128.Idx) :=
    funext fun a => Fin.ext (by
      match a with
      | ⟨0, _⟩ => show win2_13.index t (0 : Fin 2) * 4000 + 1 * (j 0).val = t.val * 4000 + (j 0).val; rw [e0]; omega
      | ⟨1, _⟩ => show win2_13.index t (1 : Fin 2) * 128 + 1 * (j 1).val = (j 1).val; rw [e1]; omega)
  rw [ee]
  refine (congrArg _ ej).trans ?_
  refine (pay_k2 _ _ _ _ _ _ _ _ _ _ _ _ _ ⟨(j 0).val, hj0⟩ ⟨(j 1).val, hj1⟩).trans ?_
  unfold G2
  rw [stage_apply]
  refine congrArg (fun x => rowH x _ _ _ _ _ _ _ _ _ _ _ _ _) (funext fun k => ?_)
  exact iblk2_0 V c t ⟨(j 0).val, hj0⟩ k ⟨t.val * 4000 + (j 0).val, by omega⟩ rfl

/-- The 25 row blocks cover the output array. -/
theorem cover2 (c : Dev nD) (i : S100000x128.Idx) :
    ∃ t : Fin cfg2.N, (cfg2.win 13).flush t = true ∧ i ∈ ((cfg2.win 13).blk t).view.set := by
  have hi0 : (i 0).val < 100000 := (i 0).isLt
  have hi1 : (i 1).val < 128 := (i 1).isLt
  have hN : cfg2.N = 25 := N_2
  have ht : (i 0).val / 4000 < cfg2.N := by rw [hN]; omega
  obtain ⟨-, -, e0, e1, -⟩ := idx_facts2 ⟨(i 0).val / 4000, ht⟩
  refine ⟨⟨(i 0).val / 4000, ht⟩, flush2_13 _, ?_⟩
  show i ∈ ((View.whole main_v66).slice (win2_13.rect ⟨(i 0).val / 4000, ht⟩)).set
  rw [View.set_slice_whole, Rect.mem_set_unit]
  intro a
  match a with
  | ⟨0, _⟩ =>
    show win2_13.index ⟨(i 0).val / 4000, ht⟩ (0 : Fin 2) * 4000 ≤ (i 0).val
      ∧ (i 0).val < win2_13.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_13.index ⟨(i 0).val / 4000, ht⟩ (1 : Fin 2) * 128 ≤ (i 1).val
      ∧ (i 1).val < win2_13.index ⟨(i 0).val / 4000, ht⟩ (1 : Fin 2) * 128 + 128
    rw [e1]; omega

/-- The output array after the region. -/
theorem final2 (c : Dev nD) : (dat2 V c).arrAt 13 cfg2.N = G2 V c :=
  (dat2 V c).arrAt_eq_of_cover 13 (G2 V c) (fun t _ => flushed2_eq V c t) (cover2 c)

end Cert.KernelIdeal.Hand

end
-- ==== Proof.KHostDefs.lean ====
/-
  The host operations between the kernel regions, as functions.

  Before each region the program aggregates over the graph: from the edge list's two rows (sources and targets) it
  gathers the source rows of the current features, scatter-adds them at the targets, and adds the features scaled by
  1 + ε. Before the last region it also pads the final projection: the [128, 1] weight becomes column 0 of a zero
  [128, 128] matrix and the one-entry bias entry 0 of a zero 128-vector. After the last region it keeps column 0 of
  the output. Each of these is named here as one function of its operands, in the program's own operations.
-/
import proofs.«164471_j84344567759038_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The edge list's row of sources. -/
def srcK (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The edge list's row of targets. -/
def dstK (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- Aggregation over the graph of 64-wide features. -/
def aggK64 (x : (⟨S100000x64, .f32⟩ : BufTy).Contents (Elt F)) (src dst : (⟨S1600000, .i32⟩ : BufTy).Contents (Elt F)) (eps : (⟨S_, .f32⟩ : BufTy).Contents (Elt F)) : (⟨S100000x64, .f32⟩ : BufTy).Contents (Elt F) :=
  addf (mulf (broadcastInDim S100000x64 ![] bcast_S_S100000x64 (addf (constant S_ .f32 0x3F800000#32) eps)) x)
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

/-- Aggregation over the graph of 128-wide features. -/
def aggK128 (h : (⟨S100000x128, .f32⟩ : BufTy).Contents (Elt F)) (src dst : (⟨S1600000, .i32⟩ : BufTy).Contents (Elt F)) (eps : (⟨S_, .f32⟩ : BufTy).Contents (Elt F)) : (⟨S100000x128, .f32⟩ : BufTy).Contents (Elt F) :=
  addf (mulf (broadcastInDim S100000x128 ![] bcast_S_S100000x128 (addf (constant S_ .f32 0x3F800000#32) eps)) h)
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

/-- The final projection's weight as column 0 of a zero [128, 128] matrix. -/
def wfpad (wf : (⟨S128x1, .f32⟩ : BufTy).Contents (Elt F)) : (⟨S128x128, .bf16⟩ : BufTy).Contents (Elt F) :=
  Host.scatter scatter_S128x128_S1_S128_0_1_1_0 (fun _ b => b)
    (broadcastInDim S128x128 ![] bcast_S_S128x128 (constant S_ .bf16 0x0000#16))
    (broadcastInDim S1 ![] bcast_S_S1 (constantI S_ 32 0#32))
    (truncf .bf16 (shapeCast S128 wf shapeCasts_S128x1_S128) bitsLt_bf16_f32)

/-- The final projection's bias as entry 0 of a zero 128-vector. -/
def bfpad (bf : (⟨S1, .f32⟩ : BufTy).Contents (Elt F)) : (⟨S128, .f32⟩ : BufTy).Contents (Elt F) :=
  Host.scatter scatter_S128_S1_S__n_0_0_0 (fun _ b => b)
    (broadcastInDim S128 ![] bcast_S_S128 (constant S_ .f32 0x00000000#32))
    (broadcastInDim S1 ![] bcast_S_S1 (constantI S_ 32 0#32))
    (shapeCast S_ bf shapeCasts_S1_S_)

/-- Column 0 of the last region's output, as a vector. -/
def tailK (o : (⟨S100000x128, .f32⟩ : BufTy).Contents (Elt F)) : (⟨S100000, .f32⟩ : BufTy).Contents (Elt F) :=
  shapeCast S100000 (extractStridedSlice S100000x1 ![0, 0] o slices_S100000x128_S100000x1_0_0) shapeCasts_S100000x1_S100000

end Cert.KernelIdeal.Hand

end
-- ==== Proof.KHost0.lean ====
/-
  The first stretch of host operations, read buffer by buffer: the aggregated input features and the two narrowed
  weights it computes, the two rows of the edge list it keeps for later, and the argument buffers it leaves alone.
-/
import proofs.«164471_j84344567759038_1_alg».proof.Proof.KHostDefs

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
set_option maxHeartbeats 4000000 in
theorem h0_v18 (W : Valuation τ sig (Elt F)) : StableHlo.after hostOps0 W (Proc.devRef .tc main_v18) = truncf .bf16 (aggK64 (W (Proc.devRef .tc main_arg0)) (srcK (W (Proc.devRef .tc main_arg1))) (dstK (W (Proc.devRef .tc main_arg1))) (W (Proc.devRef .tc main_arg2))) bitsLt_bf16_f32 := by
  after_results_simp <;> rfl

set_option maxHeartbeats 4000000 in
theorem h0_v19 (W : Valuation τ sig (Elt F)) : StableHlo.after hostOps0 W (Proc.devRef .tc main_v19) = truncf .bf16 (W (Proc.devRef .tc main_arg3)) bitsLt_bf16_f32 := by
  after_results_simp <;> rfl

set_option maxHeartbeats 4000000 in
theorem h0_v20 (W : Valuation τ sig (Elt F)) : StableHlo.after hostOps0 W (Proc.devRef .tc main_v20) = truncf .bf16 (W (Proc.devRef .tc main_arg5)) bitsLt_bf16_f32 := by
  after_results_simp <;> rfl

set_option maxHeartbeats 4000000 in
theorem h0_v1 (W : Valuation τ sig (Elt F)) : StableHlo.after hostOps0 W (Proc.devRef .tc main_v1) = srcK (W (Proc.devRef .tc main_arg1)) := by
  after_results_simp <;> rfl

set_option maxHeartbeats 4000000 in
theorem h0_v3 (W : Valuation τ sig (Elt F)) : StableHlo.after hostOps0 W (Proc.devRef .tc main_v3) = dstK (W (Proc.devRef .tc main_arg1)) := by
  after_results_simp <;> rfl

theorem h0_arg4 (W : Valuation τ sig (Elt F)) : StableHlo.after hostOps0 W (Proc.devRef .tc main_arg4) = W (Proc.devRef .tc main_arg4) := by
  after_results_simp <;> rfl

theorem h0_arg6 (W : Valuation τ sig (Elt F)) : StableHlo.after hostOps0 W (Proc.devRef .tc main_arg6) = W (Proc.devRef .tc main_arg6) := by
  after_results_simp <;> rfl

theorem h0_arg7 (W : Valuation τ sig (Elt F)) : StableHlo.after hostOps0 W (Proc.devRef .tc main_arg7) = W (Proc.devRef .tc main_arg7) := by
  after_results_simp <;> rfl

theorem h0_arg8 (W : Valuation τ sig (Elt F)) : StableHlo.after hostOps0 W (Proc.devRef .tc main_arg8) = W (Proc.devRef .tc main_arg8) := by
  after_results_simp <;> rfl

theorem h0_arg9 (W : Valuation τ sig (Elt F)) : StableHlo.after hostOps0 W (Proc.devRef .tc main_arg9) = W (Proc.devRef .tc main_arg9) := by
  after_results_simp <;> rfl

theorem h0_arg10 (W : Valuation τ sig (Elt F)) : StableHlo.after hostOps0 W (Proc.devRef .tc main_arg10) = W (Proc.devRef .tc main_arg10) := by
  after_results_simp <;> rfl

theorem h0_arg11 (W : Valuation τ sig (Elt F)) : StableHlo.after hostOps0 W (Proc.devRef .tc main_arg11) = W (Proc.devRef .tc main_arg11) := by
  after_results_simp <;> rfl

theorem h0_arg12 (W : Valuation τ sig (Elt F)) : StableHlo.after hostOps0 W (Proc.devRef .tc main_arg12) = W (Proc.devRef .tc main_arg12) := by
  after_results_simp <;> rfl

theorem h0_arg13 (W : Valuation τ sig (Elt F)) : StableHlo.after hostOps0 W (Proc.devRef .tc main_arg13) = W (Proc.devRef .tc main_arg13) := by
  after_results_simp <;> rfl

theorem h0_arg14 (W : Valuation τ sig (Elt F)) : StableHlo.after hostOps0 W (Proc.devRef .tc main_arg14) = W (Proc.devRef .tc main_arg14) := by
  after_results_simp <;> rfl

theorem h0_arg15 (W : Valuation τ sig (Elt F)) : StableHlo.after hostOps0 W (Proc.devRef .tc main_arg15) = W (Proc.devRef .tc main_arg15) := by
  after_results_simp <;> rfl

theorem h0_arg16 (W : Valuation τ sig (Elt F)) : StableHlo.after hostOps0 W (Proc.devRef .tc main_arg16) = W (Proc.devRef .tc main_arg16) := by
  after_results_simp <;> rfl

theorem h0_arg17 (W : Valuation τ sig (Elt F)) : StableHlo.after hostOps0 W (Proc.devRef .tc main_arg17) = W (Proc.devRef .tc main_arg17) := by
  after_results_simp <;> rfl

theorem h0_arg18 (W : Valuation τ sig (Elt F)) : StableHlo.after hostOps0 W (Proc.devRef .tc main_arg18) = W (Proc.devRef .tc main_arg18) := by
  after_results_simp <;> rfl

theorem h0_arg19 (W : Valuation τ sig (Elt F)) : StableHlo.after hostOps0 W (Proc.devRef .tc main_arg19) = W (Proc.devRef .tc main_arg19) := by
  after_results_simp <;> rfl

theorem h0_arg20 (W : Valuation τ sig (Elt F)) : StableHlo.after hostOps0 W (Proc.devRef .tc main_arg20) = W (Proc.devRef .tc main_arg20) := by
  after_results_simp <;> rfl

theorem h0_arg21 (W : Valuation τ sig (Elt F)) : StableHlo.after hostOps0 W (Proc.devRef .tc main_arg21) = W (Proc.devRef .tc main_arg21) := by
  after_results_simp <;> rfl

theorem h0_arg22 (W : Valuation τ sig (Elt F)) : StableHlo.after hostOps0 W (Proc.devRef .tc main_arg22) = W (Proc.devRef .tc main_arg22) := by
  after_results_simp <;> rfl

theorem h0_arg23 (W : Valuation τ sig (Elt F)) : StableHlo.after hostOps0 W (Proc.devRef .tc main_arg23) = W (Proc.devRef .tc main_arg23) := by
  after_results_simp <;> rfl

theorem h0_arg24 (W : Valuation τ sig (Elt F)) : StableHlo.after hostOps0 W (Proc.devRef .tc main_arg24) = W (Proc.devRef .tc main_arg24) := by
  after_results_simp <;> rfl

theorem h0_arg25 (W : Valuation τ sig (Elt F)) : StableHlo.after hostOps0 W (Proc.devRef .tc main_arg25) = W (Proc.devRef .tc main_arg25) := by
  after_results_simp <;> rfl

theorem h0_arg26 (W : Valuation τ sig (Elt F)) : StableHlo.after hostOps0 W (Proc.devRef .tc main_arg26) = W (Proc.devRef .tc main_arg26) := by
  after_results_simp <;> rfl

theorem h0_arg27 (W : Valuation τ sig (Elt F)) : StableHlo.after hostOps0 W (Proc.devRef .tc main_arg27) = W (Proc.devRef .tc main_arg27) := by
  after_results_simp <;> rfl

theorem h0_arg28 (W : Valuation τ sig (Elt F)) : StableHlo.after hostOps0 W (Proc.devRef .tc main_arg28) = W (Proc.devRef .tc main_arg28) := by
  after_results_simp <;> rfl

theorem h0_arg29 (W : Valuation τ sig (Elt F)) : StableHlo.after hostOps0 W (Proc.devRef .tc main_arg29) = W (Proc.devRef .tc main_arg29) := by
  after_results_simp <;> rfl

theorem h0_arg30 (W : Valuation τ sig (Elt F)) : StableHlo.after hostOps0 W (Proc.devRef .tc main_arg30) = W (Proc.devRef .tc main_arg30) := by
  after_results_simp <;> rfl

end Cert.KernelIdeal.Hand

end
-- ==== Proof.KHost1.lean ====
/-
  The second stretch of host operations, read buffer by buffer: the aggregated first-layer features and the narrowed
  weight it computes, and the buffers it leaves alone.
-/
import proofs.«164471_j84344567759038_1_alg».proof.Proof.KHostDefs

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
set_option maxHeartbeats 4000000 in
theorem h1_v36 (W : Valuation τ sig (Elt F)) : StableHlo.after hostOps1 W (Proc.devRef .tc main_v36) = truncf .bf16 (aggK128 (W (Proc.devRef .tc main_v21)) (W (Proc.devRef .tc main_v1)) (W (Proc.devRef .tc main_v3)) (W (Proc.devRef .tc main_arg11))) bitsLt_bf16_f32 := by
  after_results_simp <;> rfl

set_option maxHeartbeats 4000000 in
theorem h1_v37 (W : Valuation τ sig (Elt F)) : StableHlo.after hostOps1 W (Proc.devRef .tc main_v37) = truncf .bf16 (W (Proc.devRef .tc main_arg12)) bitsLt_bf16_f32 := by
  after_results_simp <;> rfl

theorem h1_v1 (W : Valuation τ sig (Elt F)) : StableHlo.after hostOps1 W (Proc.devRef .tc main_v1) = W (Proc.devRef .tc main_v1) := by
  after_results_simp <;> rfl

theorem h1_v3 (W : Valuation τ sig (Elt F)) : StableHlo.after hostOps1 W (Proc.devRef .tc main_v3) = W (Proc.devRef .tc main_v3) := by
  after_results_simp <;> rfl

theorem h1_arg13 (W : Valuation τ sig (Elt F)) : StableHlo.after hostOps1 W (Proc.devRef .tc main_arg13) = W (Proc.devRef .tc main_arg13) := by
  after_results_simp <;> rfl

theorem h1_arg14 (W : Valuation τ sig (Elt F)) : StableHlo.after hostOps1 W (Proc.devRef .tc main_arg14) = W (Proc.devRef .tc main_arg14) := by
  after_results_simp <;> rfl

theorem h1_arg15 (W : Valuation τ sig (Elt F)) : StableHlo.after hostOps1 W (Proc.devRef .tc main_arg15) = W (Proc.devRef .tc main_arg15) := by
  after_results_simp <;> rfl

theorem h1_arg16 (W : Valuation τ sig (Elt F)) : StableHlo.after hostOps1 W (Proc.devRef .tc main_arg16) = W (Proc.devRef .tc main_arg16) := by
  after_results_simp <;> rfl

theorem h1_arg17 (W : Valuation τ sig (Elt F)) : StableHlo.after hostOps1 W (Proc.devRef .tc main_arg17) = W (Proc.devRef .tc main_arg17) := by
  after_results_simp <;> rfl

theorem h1_arg18 (W : Valuation τ sig (Elt F)) : StableHlo.after hostOps1 W (Proc.devRef .tc main_arg18) = W (Proc.devRef .tc main_arg18) := by
  after_results_simp <;> rfl

theorem h1_arg19 (W : Valuation τ sig (Elt F)) : StableHlo.after hostOps1 W (Proc.devRef .tc main_arg19) = W (Proc.devRef .tc main_arg19) := by
  after_results_simp <;> rfl

theorem h1_arg20 (W : Valuation τ sig (Elt F)) : StableHlo.after hostOps1 W (Proc.devRef .tc main_arg20) = W (Proc.devRef .tc main_arg20) := by
  after_results_simp <;> rfl

theorem h1_arg21 (W : Valuation τ sig (Elt F)) : StableHlo.after hostOps1 W (Proc.devRef .tc main_arg21) = W (Proc.devRef .tc main_arg21) := by
  after_results_simp <;> rfl

theorem h1_arg22 (W : Valuation τ sig (Elt F)) : StableHlo.after hostOps1 W (Proc.devRef .tc main_arg22) = W (Proc.devRef .tc main_arg22) := by
  after_results_simp <;> rfl

theorem h1_arg23 (W : Valuation τ sig (Elt F)) : StableHlo.after hostOps1 W (Proc.devRef .tc main_arg23) = W (Proc.devRef .tc main_arg23) := by
  after_results_simp <;> rfl

theorem h1_arg24 (W : Valuation τ sig (Elt F)) : StableHlo.after hostOps1 W (Proc.devRef .tc main_arg24) = W (Proc.devRef .tc main_arg24) := by
  after_results_simp <;> rfl

theorem h1_arg25 (W : Valuation τ sig (Elt F)) : StableHlo.after hostOps1 W (Proc.devRef .tc main_arg25) = W (Proc.devRef .tc main_arg25) := by
  after_results_simp <;> rfl

theorem h1_arg26 (W : Valuation τ sig (Elt F)) : StableHlo.after hostOps1 W (Proc.devRef .tc main_arg26) = W (Proc.devRef .tc main_arg26) := by
  after_results_simp <;> rfl

theorem h1_arg27 (W : Valuation τ sig (Elt F)) : StableHlo.after hostOps1 W (Proc.devRef .tc main_arg27) = W (Proc.devRef .tc main_arg27) := by
  after_results_simp <;> rfl

theorem h1_arg28 (W : Valuation τ sig (Elt F)) : StableHlo.after hostOps1 W (Proc.devRef .tc main_arg28) = W (Proc.devRef .tc main_arg28) := by
  after_results_simp <;> rfl

theorem h1_arg29 (W : Valuation τ sig (Elt F)) : StableHlo.after hostOps1 W (Proc.devRef .tc main_arg29) = W (Proc.devRef .tc main_arg29) := by
  after_results_simp <;> rfl

theorem h1_arg30 (W : Valuation τ sig (Elt F)) : StableHlo.after hostOps1 W (Proc.devRef .tc main_arg30) = W (Proc.devRef .tc main_arg30) := by
  after_results_simp <;> rfl

end Cert.KernelIdeal.Hand

end
-- ==== Proof.KHost2.lean ====
/-
  The third and fourth stretches of host operations, read buffer by buffer: the aggregated second-layer features, the
  narrowed weights and the padded projection the third computes, the buffers it leaves alone, and the column the fourth
  keeps of the last region's output.
-/
import proofs.«164471_j84344567759038_1_alg».proof.Proof.KHostDefs

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
set_option maxHeartbeats 4000000 in
theorem h2_v62 (W : Valuation τ sig (Elt F)) : StableHlo.after hostOps2 W (Proc.devRef .tc main_v62) = truncf .bf16 (aggK128 (W (Proc.devRef .tc main_v38)) (W (Proc.devRef .tc main_v1)) (W (Proc.devRef .tc main_v3)) (W (Proc.devRef .tc main_arg18))) bitsLt_bf16_f32 := by
  after_results_simp <;> rfl

set_option maxHeartbeats 4000000 in
theorem h2_v63 (W : Valuation τ sig (Elt F)) : StableHlo.after hostOps2 W (Proc.devRef .tc main_v63) = truncf .bf16 (W (Proc.devRef .tc main_arg19)) bitsLt_bf16_f32 := by
  after_results_simp <;> rfl

set_option maxHeartbeats 4000000 in
theorem h2_v64 (W : Valuation τ sig (Elt F)) : StableHlo.after hostOps2 W (Proc.devRef .tc main_v64) = truncf .bf16 (W (Proc.devRef .tc main_arg21)) bitsLt_bf16_f32 := by
  after_results_simp <;> rfl

set_option maxHeartbeats 4000000 in
theorem h2_v65 (W : Valuation τ sig (Elt F)) : StableHlo.after hostOps2 W (Proc.devRef .tc main_v65) = truncf .bf16 (W (Proc.devRef .tc main_arg27)) bitsLt_bf16_f32 := by
  after_results_simp <;> rfl

set_option maxHeartbeats 4000000 in
theorem h2_v57 (W : Valuation τ sig (Elt F)) : StableHlo.after hostOps2 W (Proc.devRef .tc main_v57) = wfpad (W (Proc.devRef .tc main_arg29)) := by
  after_results_simp <;> rfl

set_option maxHeartbeats 4000000 in
theorem h2_v61 (W : Valuation τ sig (Elt F)) : StableHlo.after hostOps2 W (Proc.devRef .tc main_v61) = bfpad (W (Proc.devRef .tc main_arg30)) := by
  after_results_simp <;> rfl

theorem h2_arg20 (W : Valuation τ sig (Elt F)) : StableHlo.after hostOps2 W (Proc.devRef .tc main_arg20) = W (Proc.devRef .tc main_arg20) := by
  after_results_simp <;> rfl

theorem h2_arg22 (W : Valuation τ sig (Elt F)) : StableHlo.after hostOps2 W (Proc.devRef .tc main_arg22) = W (Proc.devRef .tc main_arg22) := by
  after_results_simp <;> rfl

theorem h2_arg23 (W : Valuation τ sig (Elt F)) : StableHlo.after hostOps2 W (Proc.devRef .tc main_arg23) = W (Proc.devRef .tc main_arg23) := by
  after_results_simp <;> rfl

theorem h2_arg24 (W : Valuation τ sig (Elt F)) : StableHlo.after hostOps2 W (Proc.devRef .tc main_arg24) = W (Proc.devRef .tc main_arg24) := by
  after_results_simp <;> rfl

theorem h2_arg25 (W : Valuation τ sig (Elt F)) : StableHlo.after hostOps2 W (Proc.devRef .tc main_arg25) = W (Proc.devRef .tc main_arg25) := by
  after_results_simp <;> rfl

theorem h2_arg26 (W : Valuation τ sig (Elt F)) : StableHlo.after hostOps2 W (Proc.devRef .tc main_arg26) = W (Proc.devRef .tc main_arg26) := by
  after_results_simp <;> rfl

theorem h2_arg28 (W : Valuation τ sig (Elt F)) : StableHlo.after hostOps2 W (Proc.devRef .tc main_arg28) = W (Proc.devRef .tc main_arg28) := by
  after_results_simp <;> rfl

set_option maxHeartbeats 4000000 in
theorem h3_v68 (W : Valuation τ sig (Elt F)) : StableHlo.after hostOps3 W (Proc.devRef .tc main_v68) = tailK (W (Proc.devRef .tc main_v66)) := by
  after_results_simp <;> rfl

end Cert.KernelIdeal.Hand

end
-- ==== Proof.KValue.lean ====
/-
  The idealized kernel program's result as a function of its arguments.

  Walking the program's boundaries in order: the first stretch of host operations aggregates the input features; the
  first region applies `rowA` to every row; the second stretch aggregates again; the second region applies `rowB`; the
  third stretch aggregates a third time and pads the final projection; the third region applies `rowH`; the last stretch
  keeps column 0. Every buffer a later step reads is followed back through the steps that leave it alone to the
  step that wrote it, or to the launch memory.
-/
import proofs.«164471_j84344567759038_1_alg».proof.Proof.Gen.KernelIdeal.Frame
import proofs.«164471_j84344567759038_1_alg».proof.Proof.KBlocks0
import proofs.«164471_j84344567759038_1_alg».proof.Proof.KBlocks1
import proofs.«164471_j84344567759038_1_alg».proof.Proof.KBlocks2
import proofs.«164471_j84344567759038_1_alg».proof.Proof.KHost0
import proofs.«164471_j84344567759038_1_alg».proof.Proof.KHost1
import proofs.«164471_j84344567759038_1_alg».proof.Proof.KHost2

set_option maxRecDepth 16384

noncomputable section

namespace Cert.KernelIdeal.Hand

open Cert.KernelIdeal Cert.KernelIdeal.Gen Cert.Gin
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The narrowing to bf16 is the identity on arrays of extended reals. -/
theorem truncf_id {s : Shape} {φ ψ : FTy} (a : FVec Ideal s φ) (h : ψ.bits < φ.bits) :
    (truncf ψ a h : s.Idx → EReal) = a := rfl

/-- The aggregated input features. -/
def a1K : (⟨S100000x64, .f32⟩ : BufTy).Contents (Elt Ideal) :=
  aggK64 (m ((c.tc : Thread nD τ).loc main_arg0)) (srcK (m ((c.tc : Thread nD τ).loc main_arg1))) (dstK (m ((c.tc : Thread nD τ).loc main_arg1))) (m ((c.tc : Thread nD τ).loc main_arg2))
/-- The first layer's features. -/
def h1K : Mat 100000 128 :=
  stage (fun x => rowA x (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (a1K m c)
/-- The aggregated first-layer features. -/
def a2K : (⟨S100000x128, .f32⟩ : BufTy).Contents (Elt Ideal) :=
  aggK128 (h1K m c) (srcK (m ((c.tc : Thread nD τ).loc main_arg1))) (dstK (m ((c.tc : Thread nD τ).loc main_arg1))) (m ((c.tc : Thread nD τ).loc main_arg11))
/-- The second layer's features. -/
def h2K : Mat 100000 128 :=
  stage (fun x => rowB x (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) (a2K m c)
/-- The aggregated second-layer features. -/
def a3K : (⟨S100000x128, .f32⟩ : BufTy).Contents (Elt Ideal) :=
  aggK128 (h2K m c) (srcK (m ((c.tc : Thread nD τ).loc main_arg1))) (dstK (m ((c.tc : Thread nD τ).loc main_arg1))) (m ((c.tc : Thread nD τ).loc main_arg18))
/-- The third region's output: the head applied to every row, with the padded projection. -/
def oK : Mat 100000 128 :=
  stage (fun x => rowH x (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
    (wfpad (m ((c.tc : Thread nD τ).loc main_arg29))) (bfpad (m ((c.tc : Thread nD τ).loc main_arg30)))) (a3K m c)
/-- The program's result. -/
def outK : (⟨S100000, .f32⟩ : BufTy).Contents (Elt Ideal) := tailK (oK m c)

/-! ## Region 0's entry -/

theorem V1_v18 : V1 m ρ c main_v18 = a1K m c := h0_v18 (W0 m ρ c)
theorem V1_v19 : V1 m ρ c main_v19 = (m ((c.tc : Thread nD τ).loc main_arg3)) := h0_v19 (W0 m ρ c)
theorem V1_v20 : V1 m ρ c main_v20 = (m ((c.tc : Thread nD τ).loc main_arg5)) := h0_v20 (W0 m ρ c)
theorem V1_v1 : V1 m ρ c main_v1 = srcK (m ((c.tc : Thread nD τ).loc main_arg1)) := h0_v1 (W0 m ρ c)
theorem V1_v3 : V1 m ρ c main_v3 = dstK (m ((c.tc : Thread nD τ).loc main_arg1)) := h0_v3 (W0 m ρ c)
theorem V1_arg4 : V1 m ρ c main_arg4 = (m ((c.tc : Thread nD τ).loc main_arg4)) := h0_arg4 (W0 m ρ c)
theorem V1_arg6 : V1 m ρ c main_arg6 = (m ((c.tc : Thread nD τ).loc main_arg6)) := h0_arg6 (W0 m ρ c)
theorem V1_arg7 : V1 m ρ c main_arg7 = (m ((c.tc : Thread nD τ).loc main_arg7)) := h0_arg7 (W0 m ρ c)
theorem V1_arg8 : V1 m ρ c main_arg8 = (m ((c.tc : Thread nD τ).loc main_arg8)) := h0_arg8 (W0 m ρ c)
theorem V1_arg9 : V1 m ρ c main_arg9 = (m ((c.tc : Thread nD τ).loc main_arg9)) := h0_arg9 (W0 m ρ c)
theorem V1_arg10 : V1 m ρ c main_arg10 = (m ((c.tc : Thread nD τ).loc main_arg10)) := h0_arg10 (W0 m ρ c)
theorem V1_arg11 : V1 m ρ c main_arg11 = (m ((c.tc : Thread nD τ).loc main_arg11)) := h0_arg11 (W0 m ρ c)
theorem V1_arg12 : V1 m ρ c main_arg12 = (m ((c.tc : Thread nD τ).loc main_arg12)) := h0_arg12 (W0 m ρ c)
theorem V1_arg13 : V1 m ρ c main_arg13 = (m ((c.tc : Thread nD τ).loc main_arg13)) := h0_arg13 (W0 m ρ c)
theorem V1_arg14 : V1 m ρ c main_arg14 = (m ((c.tc : Thread nD τ).loc main_arg14)) := h0_arg14 (W0 m ρ c)
theorem V1_arg15 : V1 m ρ c main_arg15 = (m ((c.tc : Thread nD τ).loc main_arg15)) := h0_arg15 (W0 m ρ c)
theorem V1_arg16 : V1 m ρ c main_arg16 = (m ((c.tc : Thread nD τ).loc main_arg16)) := h0_arg16 (W0 m ρ c)
theorem V1_arg17 : V1 m ρ c main_arg17 = (m ((c.tc : Thread nD τ).loc main_arg17)) := h0_arg17 (W0 m ρ c)
theorem V1_arg18 : V1 m ρ c main_arg18 = (m ((c.tc : Thread nD τ).loc main_arg18)) := h0_arg18 (W0 m ρ c)
theorem V1_arg19 : V1 m ρ c main_arg19 = (m ((c.tc : Thread nD τ).loc main_arg19)) := h0_arg19 (W0 m ρ c)
theorem V1_arg20 : V1 m ρ c main_arg20 = (m ((c.tc : Thread nD τ).loc main_arg20)) := h0_arg20 (W0 m ρ c)
theorem V1_arg21 : V1 m ρ c main_arg21 = (m ((c.tc : Thread nD τ).loc main_arg21)) := h0_arg21 (W0 m ρ c)
theorem V1_arg22 : V1 m ρ c main_arg22 = (m ((c.tc : Thread nD τ).loc main_arg22)) := h0_arg22 (W0 m ρ c)
theorem V1_arg23 : V1 m ρ c main_arg23 = (m ((c.tc : Thread nD τ).loc main_arg23)) := h0_arg23 (W0 m ρ c)
theorem V1_arg24 : V1 m ρ c main_arg24 = (m ((c.tc : Thread nD τ).loc main_arg24)) := h0_arg24 (W0 m ρ c)
theorem V1_arg25 : V1 m ρ c main_arg25 = (m ((c.tc : Thread nD τ).loc main_arg25)) := h0_arg25 (W0 m ρ c)
theorem V1_arg26 : V1 m ρ c main_arg26 = (m ((c.tc : Thread nD τ).loc main_arg26)) := h0_arg26 (W0 m ρ c)
theorem V1_arg27 : V1 m ρ c main_arg27 = (m ((c.tc : Thread nD τ).loc main_arg27)) := h0_arg27 (W0 m ρ c)
theorem V1_arg28 : V1 m ρ c main_arg28 = (m ((c.tc : Thread nD τ).loc main_arg28)) := h0_arg28 (W0 m ρ c)
theorem V1_arg29 : V1 m ρ c main_arg29 = (m ((c.tc : Thread nD τ).loc main_arg29)) := h0_arg29 (W0 m ρ c)
theorem V1_arg30 : V1 m ρ c main_arg30 = (m ((c.tc : Thread nD τ).loc main_arg30)) := h0_arg30 (W0 m ρ c)

/-! ## Region 0's exit -/

theorem V2_v21 : V2 m ρ c main_v21 = h1K m c := by
  refine (W2_arr m ρ c 9).trans ((final0 (V1 m ρ) c).trans ?_)
  unfold G0 h1K
  rw [V1_v18, V1_v19, V1_v20, V1_arg4, V1_arg6, V1_arg7, V1_arg8, V1_arg9, V1_arg10]
theorem V2_v1 : V2 m ρ c main_v1 = srcK (m ((c.tc : Thread nD τ).loc main_arg1)) := (W2_of_ne m ρ c main_v1 (by decide)).trans (V1_v1 m ρ c)
theorem V2_v3 : V2 m ρ c main_v3 = dstK (m ((c.tc : Thread nD τ).loc main_arg1)) := (W2_of_ne m ρ c main_v3 (by decide)).trans (V1_v3 m ρ c)
theorem V2_arg11 : V2 m ρ c main_arg11 = (m ((c.tc : Thread nD τ).loc main_arg11)) := (W2_of_ne m ρ c main_arg11 (by decide)).trans (V1_arg11 m ρ c)
theorem V2_arg12 : V2 m ρ c main_arg12 = (m ((c.tc : Thread nD τ).loc main_arg12)) := (W2_of_ne m ρ c main_arg12 (by decide)).trans (V1_arg12 m ρ c)
theorem V2_arg13 : V2 m ρ c main_arg13 = (m ((c.tc : Thread nD τ).loc main_arg13)) := (W2_of_ne m ρ c main_arg13 (by decide)).trans (V1_arg13 m ρ c)
theorem V2_arg14 : V2 m ρ c main_arg14 = (m ((c.tc : Thread nD τ).loc main_arg14)) := (W2_of_ne m ρ c main_arg14 (by decide)).trans (V1_arg14 m ρ c)
theorem V2_arg15 : V2 m ρ c main_arg15 = (m ((c.tc : Thread nD τ).loc main_arg15)) := (W2_of_ne m ρ c main_arg15 (by decide)).trans (V1_arg15 m ρ c)
theorem V2_arg16 : V2 m ρ c main_arg16 = (m ((c.tc : Thread nD τ).loc main_arg16)) := (W2_of_ne m ρ c main_arg16 (by decide)).trans (V1_arg16 m ρ c)
theorem V2_arg17 : V2 m ρ c main_arg17 = (m ((c.tc : Thread nD τ).loc main_arg17)) := (W2_of_ne m ρ c main_arg17 (by decide)).trans (V1_arg17 m ρ c)
theorem V2_arg18 : V2 m ρ c main_arg18 = (m ((c.tc : Thread nD τ).loc main_arg18)) := (W2_of_ne m ρ c main_arg18 (by decide)).trans (V1_arg18 m ρ c)
theorem V2_arg19 : V2 m ρ c main_arg19 = (m ((c.tc : Thread nD τ).loc main_arg19)) := (W2_of_ne m ρ c main_arg19 (by decide)).trans (V1_arg19 m ρ c)
theorem V2_arg20 : V2 m ρ c main_arg20 = (m ((c.tc : Thread nD τ).loc main_arg20)) := (W2_of_ne m ρ c main_arg20 (by decide)).trans (V1_arg20 m ρ c)
theorem V2_arg21 : V2 m ρ c main_arg21 = (m ((c.tc : Thread nD τ).loc main_arg21)) := (W2_of_ne m ρ c main_arg21 (by decide)).trans (V1_arg21 m ρ c)
theorem V2_arg22 : V2 m ρ c main_arg22 = (m ((c.tc : Thread nD τ).loc main_arg22)) := (W2_of_ne m ρ c main_arg22 (by decide)).trans (V1_arg22 m ρ c)
theorem V2_arg23 : V2 m ρ c main_arg23 = (m ((c.tc : Thread nD τ).loc main_arg23)) := (W2_of_ne m ρ c main_arg23 (by decide)).trans (V1_arg23 m ρ c)
theorem V2_arg24 : V2 m ρ c main_arg24 = (m ((c.tc : Thread nD τ).loc main_arg24)) := (W2_of_ne m ρ c main_arg24 (by decide)).trans (V1_arg24 m ρ c)
theorem V2_arg25 : V2 m ρ c main_arg25 = (m ((c.tc : Thread nD τ).loc main_arg25)) := (W2_of_ne m ρ c main_arg25 (by decide)).trans (V1_arg25 m ρ c)
theorem V2_arg26 : V2 m ρ c main_arg26 = (m ((c.tc : Thread nD τ).loc main_arg26)) := (W2_of_ne m ρ c main_arg26 (by decide)).trans (V1_arg26 m ρ c)
theorem V2_arg27 : V2 m ρ c main_arg27 = (m ((c.tc : Thread nD τ).loc main_arg27)) := (W2_of_ne m ρ c main_arg27 (by decide)).trans (V1_arg27 m ρ c)
theorem V2_arg28 : V2 m ρ c main_arg28 = (m ((c.tc : Thread nD τ).loc main_arg28)) := (W2_of_ne m ρ c main_arg28 (by decide)).trans (V1_arg28 m ρ c)
theorem V2_arg29 : V2 m ρ c main_arg29 = (m ((c.tc : Thread nD τ).loc main_arg29)) := (W2_of_ne m ρ c main_arg29 (by decide)).trans (V1_arg29 m ρ c)
theorem V2_arg30 : V2 m ρ c main_arg30 = (m ((c.tc : Thread nD τ).loc main_arg30)) := (W2_of_ne m ρ c main_arg30 (by decide)).trans (V1_arg30 m ρ c)

/-! ## Region 1's entry -/

theorem V3_v36 : V3 m ρ c main_v36 = a2K m c := by
  refine (h1_v36 (W2 m ρ c)).trans ?_
  rw [show W2 m ρ c (Proc.devRef .tc main_v21) = h1K m c from V2_v21 m ρ c,
    show W2 m ρ c (Proc.devRef .tc main_v1) = _ from V2_v1 m ρ c,
    show W2 m ρ c (Proc.devRef .tc main_v3) = _ from V2_v3 m ρ c,
    show W2 m ρ c (Proc.devRef .tc main_arg11) = _ from V2_arg11 m ρ c]
  rfl
theorem V3_v37 : V3 m ρ c main_v37 = (m ((c.tc : Thread nD τ).loc main_arg12)) :=
  (h1_v37 (W2 m ρ c)).trans (by rw [show W2 m ρ c (Proc.devRef .tc main_arg12) = _ from V2_arg12 m ρ c]; rfl)
theorem V3_v1 : V3 m ρ c main_v1 = srcK (m ((c.tc : Thread nD τ).loc main_arg1)) := (h1_v1 (W2 m ρ c)).trans (V2_v1 m ρ c)
theorem V3_v3 : V3 m ρ c main_v3 = dstK (m ((c.tc : Thread nD τ).loc main_arg1)) := (h1_v3 (W2 m ρ c)).trans (V2_v3 m ρ c)
theorem V3_arg13 : V3 m ρ c main_arg13 = (m ((c.tc : Thread nD τ).loc main_arg13)) := (h1_arg13 (W2 m ρ c)).trans (V2_arg13 m ρ c)
theorem V3_arg14 : V3 m ρ c main_arg14 = (m ((c.tc : Thread nD τ).loc main_arg14)) := (h1_arg14 (W2 m ρ c)).trans (V2_arg14 m ρ c)
theorem V3_arg15 : V3 m ρ c main_arg15 = (m ((c.tc : Thread nD τ).loc main_arg15)) := (h1_arg15 (W2 m ρ c)).trans (V2_arg15 m ρ c)
theorem V3_arg16 : V3 m ρ c main_arg16 = (m ((c.tc : Thread nD τ).loc main_arg16)) := (h1_arg16 (W2 m ρ c)).trans (V2_arg16 m ρ c)
theorem V3_arg17 : V3 m ρ c main_arg17 = (m ((c.tc : Thread nD τ).loc main_arg17)) := (h1_arg17 (W2 m ρ c)).trans (V2_arg17 m ρ c)
theorem V3_arg18 : V3 m ρ c main_arg18 = (m ((c.tc : Thread nD τ).loc main_arg18)) := (h1_arg18 (W2 m ρ c)).trans (V2_arg18 m ρ c)
theorem V3_arg19 : V3 m ρ c main_arg19 = (m ((c.tc : Thread nD τ).loc main_arg19)) := (h1_arg19 (W2 m ρ c)).trans (V2_arg19 m ρ c)
theorem V3_arg20 : V3 m ρ c main_arg20 = (m ((c.tc : Thread nD τ).loc main_arg20)) := (h1_arg20 (W2 m ρ c)).trans (V2_arg20 m ρ c)
theorem V3_arg21 : V3 m ρ c main_arg21 = (m ((c.tc : Thread nD τ).loc main_arg21)) := (h1_arg21 (W2 m ρ c)).trans (V2_arg21 m ρ c)
theorem V3_arg22 : V3 m ρ c main_arg22 = (m ((c.tc : Thread nD τ).loc main_arg22)) := (h1_arg22 (W2 m ρ c)).trans (V2_arg22 m ρ c)
theorem V3_arg23 : V3 m ρ c main_arg23 = (m ((c.tc : Thread nD τ).loc main_arg23)) := (h1_arg23 (W2 m ρ c)).trans (V2_arg23 m ρ c)
theorem V3_arg24 : V3 m ρ c main_arg24 = (m ((c.tc : Thread nD τ).loc main_arg24)) := (h1_arg24 (W2 m ρ c)).trans (V2_arg24 m ρ c)
theorem V3_arg25 : V3 m ρ c main_arg25 = (m ((c.tc : Thread nD τ).loc main_arg25)) := (h1_arg25 (W2 m ρ c)).trans (V2_arg25 m ρ c)
theorem V3_arg26 : V3 m ρ c main_arg26 = (m ((c.tc : Thread nD τ).loc main_arg26)) := (h1_arg26 (W2 m ρ c)).trans (V2_arg26 m ρ c)
theorem V3_arg27 : V3 m ρ c main_arg27 = (m ((c.tc : Thread nD τ).loc main_arg27)) := (h1_arg27 (W2 m ρ c)).trans (V2_arg27 m ρ c)
theorem V3_arg28 : V3 m ρ c main_arg28 = (m ((c.tc : Thread nD τ).loc main_arg28)) := (h1_arg28 (W2 m ρ c)).trans (V2_arg28 m ρ c)
theorem V3_arg29 : V3 m ρ c main_arg29 = (m ((c.tc : Thread nD τ).loc main_arg29)) := (h1_arg29 (W2 m ρ c)).trans (V2_arg29 m ρ c)
theorem V3_arg30 : V3 m ρ c main_arg30 = (m ((c.tc : Thread nD τ).loc main_arg30)) := (h1_arg30 (W2 m ρ c)).trans (V2_arg30 m ρ c)

/-! ## Region 1's exit -/

theorem V4_v38 : V4 m ρ c main_v38 = h2K m c := by
  refine (W4_arr m ρ c 7).trans ((final1 (V3 m ρ) c).trans ?_)
  unfold G1 h2K
  rw [V3_v36, V3_v37, V3_arg13, V3_arg14, V3_arg15, V3_arg16, V3_arg17]
theorem V4_v1 : V4 m ρ c main_v1 = srcK (m ((c.tc : Thread nD τ).loc main_arg1)) := (W4_of_ne m ρ c main_v1 (by decide)).trans (V3_v1 m ρ c)
theorem V4_v3 : V4 m ρ c main_v3 = dstK (m ((c.tc : Thread nD τ).loc main_arg1)) := (W4_of_ne m ρ c main_v3 (by decide)).trans (V3_v3 m ρ c)
theorem V4_arg18 : V4 m ρ c main_arg18 = (m ((c.tc : Thread nD τ).loc main_arg18)) := (W4_of_ne m ρ c main_arg18 (by decide)).trans (V3_arg18 m ρ c)
theorem V4_arg19 : V4 m ρ c main_arg19 = (m ((c.tc : Thread nD τ).loc main_arg19)) := (W4_of_ne m ρ c main_arg19 (by decide)).trans (V3_arg19 m ρ c)
theorem V4_arg20 : V4 m ρ c main_arg20 = (m ((c.tc : Thread nD τ).loc main_arg20)) := (W4_of_ne m ρ c main_arg20 (by decide)).trans (V3_arg20 m ρ c)
theorem V4_arg21 : V4 m ρ c main_arg21 = (m ((c.tc : Thread nD τ).loc main_arg21)) := (W4_of_ne m ρ c main_arg21 (by decide)).trans (V3_arg21 m ρ c)
theorem V4_arg22 : V4 m ρ c main_arg22 = (m ((c.tc : Thread nD τ).loc main_arg22)) := (W4_of_ne m ρ c main_arg22 (by decide)).trans (V3_arg22 m ρ c)
theorem V4_arg23 : V4 m ρ c main_arg23 = (m ((c.tc : Thread nD τ).loc main_arg23)) := (W4_of_ne m ρ c main_arg23 (by decide)).trans (V3_arg23 m ρ c)
theorem V4_arg24 : V4 m ρ c main_arg24 = (m ((c.tc : Thread nD τ).loc main_arg24)) := (W4_of_ne m ρ c main_arg24 (by decide)).trans (V3_arg24 m ρ c)
theorem V4_arg25 : V4 m ρ c main_arg25 = (m ((c.tc : Thread nD τ).loc main_arg25)) := (W4_of_ne m ρ c main_arg25 (by decide)).trans (V3_arg25 m ρ c)
theorem V4_arg26 : V4 m ρ c main_arg26 = (m ((c.tc : Thread nD τ).loc main_arg26)) := (W4_of_ne m ρ c main_arg26 (by decide)).trans (V3_arg26 m ρ c)
theorem V4_arg27 : V4 m ρ c main_arg27 = (m ((c.tc : Thread nD τ).loc main_arg27)) := (W4_of_ne m ρ c main_arg27 (by decide)).trans (V3_arg27 m ρ c)
theorem V4_arg28 : V4 m ρ c main_arg28 = (m ((c.tc : Thread nD τ).loc main_arg28)) := (W4_of_ne m ρ c main_arg28 (by decide)).trans (V3_arg28 m ρ c)
theorem V4_arg29 : V4 m ρ c main_arg29 = (m ((c.tc : Thread nD τ).loc main_arg29)) := (W4_of_ne m ρ c main_arg29 (by decide)).trans (V3_arg29 m ρ c)
theorem V4_arg30 : V4 m ρ c main_arg30 = (m ((c.tc : Thread nD τ).loc main_arg30)) := (W4_of_ne m ρ c main_arg30 (by decide)).trans (V3_arg30 m ρ c)

/-! ## Region 2's entry -/

theorem V5_v62 : V5 m ρ c main_v62 = a3K m c := by
  refine (h2_v62 (W4 m ρ c)).trans ?_
  rw [show W4 m ρ c (Proc.devRef .tc main_v38) = h2K m c from V4_v38 m ρ c,
    show W4 m ρ c (Proc.devRef .tc main_v1) = _ from V4_v1 m ρ c,
    show W4 m ρ c (Proc.devRef .tc main_v3) = _ from V4_v3 m ρ c,
    show W4 m ρ c (Proc.devRef .tc main_arg18) = _ from V4_arg18 m ρ c]
  rfl
theorem V5_v63 : V5 m ρ c main_v63 = (m ((c.tc : Thread nD τ).loc main_arg19)) :=
  (h2_v63 (W4 m ρ c)).trans (by rw [show W4 m ρ c (Proc.devRef .tc main_arg19) = _ from V4_arg19 m ρ c]; rfl)
theorem V5_v64 : V5 m ρ c main_v64 = (m ((c.tc : Thread nD τ).loc main_arg21)) :=
  (h2_v64 (W4 m ρ c)).trans (by rw [show W4 m ρ c (Proc.devRef .tc main_arg21) = _ from V4_arg21 m ρ c]; rfl)
theorem V5_v65 : V5 m ρ c main_v65 = (m ((c.tc : Thread nD τ).loc main_arg27)) :=
  (h2_v65 (W4 m ρ c)).trans (by rw [show W4 m ρ c (Proc.devRef .tc main_arg27) = _ from V4_arg27 m ρ c]; rfl)
theorem V5_v57 : V5 m ρ c main_v57 = wfpad (m ((c.tc : Thread nD τ).loc main_arg29)) :=
  (h2_v57 (W4 m ρ c)).trans (by rw [show W4 m ρ c (Proc.devRef .tc main_arg29) = _ from V4_arg29 m ρ c])
theorem V5_v61 : V5 m ρ c main_v61 = bfpad (m ((c.tc : Thread nD τ).loc main_arg30)) :=
  (h2_v61 (W4 m ρ c)).trans (by rw [show W4 m ρ c (Proc.devRef .tc main_arg30) = _ from V4_arg30 m ρ c])
theorem V5_arg20 : V5 m ρ c main_arg20 = (m ((c.tc : Thread nD τ).loc main_arg20)) := (h2_arg20 (W4 m ρ c)).trans (V4_arg20 m ρ c)
theorem V5_arg22 : V5 m ρ c main_arg22 = (m ((c.tc : Thread nD τ).loc main_arg22)) := (h2_arg22 (W4 m ρ c)).trans (V4_arg22 m ρ c)
theorem V5_arg23 : V5 m ρ c main_arg23 = (m ((c.tc : Thread nD τ).loc main_arg23)) := (h2_arg23 (W4 m ρ c)).trans (V4_arg23 m ρ c)
theorem V5_arg24 : V5 m ρ c main_arg24 = (m ((c.tc : Thread nD τ).loc main_arg24)) := (h2_arg24 (W4 m ρ c)).trans (V4_arg24 m ρ c)
theorem V5_arg25 : V5 m ρ c main_arg25 = (m ((c.tc : Thread nD τ).loc main_arg25)) := (h2_arg25 (W4 m ρ c)).trans (V4_arg25 m ρ c)
theorem V5_arg26 : V5 m ρ c main_arg26 = (m ((c.tc : Thread nD τ).loc main_arg26)) := (h2_arg26 (W4 m ρ c)).trans (V4_arg26 m ρ c)
theorem V5_arg28 : V5 m ρ c main_arg28 = (m ((c.tc : Thread nD τ).loc main_arg28)) := (h2_arg28 (W4 m ρ c)).trans (V4_arg28 m ρ c)

/-! ## Region 2's exit and the result -/

set_option maxHeartbeats 4000000 in
theorem V6_v66 : V6 m ρ c main_v66 = oK m c := by
  refine (W6_arr m ρ c 13).trans ((final2 (V5 m ρ) c).trans ?_)
  unfold G2 oK
  rw [V5_v62, V5_v63, V5_v64, V5_v65, V5_v57, V5_v61, V5_arg20, V5_arg22, V5_arg23, V5_arg24, V5_arg25, V5_arg26, V5_arg28]
  try rfl

/-- The result buffer after the run holds `outK`. -/
theorem W7_v68 : W7 m ρ c (Proc.devRef .tc main_v68) = outK m c := by
  refine (h3_v68 (W6 m ρ c)).trans ?_
  rw [show W6 m ρ c (Proc.devRef .tc main_v66) = oK m c from V6_v66 m ρ c]
  rfl

end Cert.KernelIdeal.Hand

end
-- ==== Proof.RSpec.lean ====
/-
  The reference program's result as a composition of its stages.

  The reference's @main is three rounds of neighbourhood aggregation, each followed by a dense stage, and a head.
  Each stage is named here as a function of its operand arrays, in the reference's own host operations:
  `agg64` / `agg128` (self term scaled by 1 + ε plus the scatter-add over edges of the gathered neighbour rows),
  `mlpA64` / `mlpA128` (two linear layers with relu, then the normalisation), `mlpB` (one linear layer with relu, then
  the normalisation) and `head` (a linear layer with relu, the projection to one column, the squeeze). The run's
  result term is their composition.
-/
import proofs.«164471_j84344567759038_1_alg».proof.Proof.Gen.ReferenceIdeal.Run

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem

variable {F : FTy → Type} [FloatOps F]

/-- One round of aggregation on 64-wide features. -/
def agg64 (x : (⟨S100000x64, .f32⟩ : BufTy).Contents (Elt F)) (ei : (⟨S2x1600000, .i32⟩ : BufTy).Contents (Elt F)) (eps : (⟨S_, .f32⟩ : BufTy).Contents (Elt F)) : (⟨S100000x64, .f32⟩ : BufTy).Contents (Elt F) :=
  (addf (mulf (broadcastInDim S100000x64 ![] bcast_S_S100000x64 (addf (constant S_ .f32 0x3F800000#32) eps)) x) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))))

/-- One round of aggregation on 128-wide features. -/
def agg128 (h : (⟨S100000x128, .f32⟩ : BufTy).Contents (Elt F)) (ei : (⟨S2x1600000, .i32⟩ : BufTy).Contents (Elt F)) (eps : (⟨S_, .f32⟩ : BufTy).Contents (Elt F)) : (⟨S100000x128, .f32⟩ : BufTy).Contents (Elt F) :=
  (addf (mulf (broadcastInDim S100000x128 ![] bcast_S_S100000x128 (addf (constant S_ .f32 0x3F800000#32) eps)) h) (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 h (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))))

/-- Two linear layers with relu and the normalisation, from 64-wide rows. -/
def mlpA64 (a : (⟨S100000x64, .f32⟩ : BufTy).Contents (Elt F)) (W1a : (⟨S64x128, .f32⟩ : BufTy).Contents (Elt F)) (b1a : (⟨S128, .f32⟩ : BufTy).Contents (Elt F)) (W1b : (⟨S128x128, .f32⟩ : BufTy).Contents (Elt F))
    (b1b g be mu var : (⟨S128, .f32⟩ : BufTy).Contents (Elt F)) : (⟨S100000x128, .f32⟩ : BufTy).Contents (Elt F) :=
  (addf (mulf (mulf (subf (maximumf (addf (Host.dotGeneral dot_S100000x128_S128x128_S100000x128_1_0_0_1_n_n none (maximumf (addf (Host.dotGeneral dot_S100000x64_S64x128_S100000x128_1_0_0_1_n_n none a W1a) (broadcastInDim S100000x128 ![0, 1] bcast_S1x128_S100000x128_0_1 (broadcastInDim S1x128 ![1] bcast_S128_S1x128_1 b1a))) (broadcastInDim S100000x128 ![] bcast_S_S100000x128 (constant S_ .f32 0x00000000#32))) W1b) (broadcastInDim S100000x128 ![0, 1] bcast_S1x128_S100000x128_0_1 (broadcastInDim S1x128 ![1] bcast_S128_S1x128_1 b1b))) (broadcastInDim S100000x128 ![] bcast_S_S100000x128 (constant S_ .f32 0x00000000#32))) (broadcastInDim S100000x128 ![0, 1] bcast_S1x128_S100000x128_0_1 (broadcastInDim S1x128 ![1] bcast_S128_S1x128_1 mu))) (broadcastInDim S100000x128 ![0, 1] bcast_S1x128_S100000x128_0_1 (broadcastInDim S1x128 ![1] bcast_S128_S1x128_1 (Host.rsqrt (addf var (broadcastInDim S128 ![] bcast_S_S128 (constant S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be)))

/-- One linear layer with relu and the normalisation. -/
def mlpB (a : (⟨S100000x128, .f32⟩ : BufTy).Contents (Elt F)) (W2a : (⟨S128x128, .f32⟩ : BufTy).Contents (Elt F)) (b2a g be mu var : (⟨S128, .f32⟩ : BufTy).Contents (Elt F)) : (⟨S100000x128, .f32⟩ : BufTy).Contents (Elt F) :=
  (addf (mulf (mulf (subf (maximumf (addf (Host.dotGeneral dot_S100000x128_S128x128_S100000x128_1_0_0_1_n_n none a W2a) (broadcastInDim S100000x128 ![0, 1] bcast_S1x128_S100000x128_0_1 (broadcastInDim S1x128 ![1] bcast_S128_S1x128_1 b2a))) (broadcastInDim S100000x128 ![] bcast_S_S100000x128 (constant S_ .f32 0x00000000#32))) (broadcastInDim S100000x128 ![0, 1] bcast_S1x128_S100000x128_0_1 (broadcastInDim S1x128 ![1] bcast_S128_S1x128_1 mu))) (broadcastInDim S100000x128 ![0, 1] bcast_S1x128_S100000x128_0_1 (broadcastInDim S1x128 ![1] bcast_S128_S1x128_1 (Host.rsqrt (addf var (broadcastInDim S128 ![] bcast_S_S128 (constant S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be)))

/-- Two linear layers with relu and the normalisation, from 128-wide rows. -/
def mlpA128 (a : (⟨S100000x128, .f32⟩ : BufTy).Contents (Elt F)) (W3a : (⟨S128x128, .f32⟩ : BufTy).Contents (Elt F)) (b3a : (⟨S128, .f32⟩ : BufTy).Contents (Elt F)) (W3b : (⟨S128x128, .f32⟩ : BufTy).Contents (Elt F))
    (b3b g be mu var : (⟨S128, .f32⟩ : BufTy).Contents (Elt F)) : (⟨S100000x128, .f32⟩ : BufTy).Contents (Elt F) :=
  (addf (mulf (mulf (subf (maximumf (addf (Host.dotGeneral dot_S100000x128_S128x128_S100000x128_1_0_0_1_n_n none (maximumf (addf (Host.dotGeneral dot_S100000x128_S128x128_S100000x128_1_0_0_1_n_n none a W3a) (broadcastInDim S100000x128 ![0, 1] bcast_S1x128_S100000x128_0_1 (broadcastInDim S1x128 ![1] bcast_S128_S1x128_1 b3a))) (broadcastInDim S100000x128 ![] bcast_S_S100000x128 (constant S_ .f32 0x00000000#32))) W3b) (broadcastInDim S100000x128 ![0, 1] bcast_S1x128_S100000x128_0_1 (broadcastInDim S1x128 ![1] bcast_S128_S1x128_1 b3b))) (broadcastInDim S100000x128 ![] bcast_S_S100000x128 (constant S_ .f32 0x00000000#32))) (broadcastInDim S100000x128 ![0, 1] bcast_S1x128_S100000x128_0_1 (broadcastInDim S1x128 ![1] bcast_S128_S1x128_1 mu))) (broadcastInDim S100000x128 ![0, 1] bcast_S1x128_S100000x128_0_1 (broadcastInDim S1x128 ![1] bcast_S128_S1x128_1 (Host.rsqrt (addf var (broadcastInDim S128 ![] bcast_S_S128 (constant S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be)))

/-- The head: a linear layer with relu, the projection to one column, the squeeze. -/
def head (h : (⟨S100000x128, .f32⟩ : BufTy).Contents (Elt F)) (Wl : (⟨S128x128, .f32⟩ : BufTy).Contents (Elt F)) (bl : (⟨S128, .f32⟩ : BufTy).Contents (Elt F)) (Wf : (⟨S128x1, .f32⟩ : BufTy).Contents (Elt F))
    (bf : (⟨S1, .f32⟩ : BufTy).Contents (Elt F)) : (⟨S100000, .f32⟩ : BufTy).Contents (Elt F) :=
  shapeCast _ (addf (Host.dotGeneral dot_S100000x128_S128x1_S100000x1_1_0_0_1_n_n none (maximumf (addf (Host.dotGeneral dot_S100000x128_S128x128_S100000x128_1_0_0_1_n_n none h Wl) (broadcastInDim S100000x128 ![0, 1] bcast_S1x128_S100000x128_0_1 (broadcastInDim S1x128 ![1] bcast_S128_S1x128_1 bl))) (broadcastInDim S100000x128 ![] bcast_S_S100000x128 (constant S_ .f32 0x00000000#32))) Wf) (broadcastInDim S100000x1 ![0, 1] bcast_S1x1_S100000x1_0_1 (broadcastInDim S1x1 ![1] bcast_S1_S1x1_1 bf))) shapeCasts_S100000x1_S100000

/-- The run's result term is the composition of the stages. -/
theorem res_eq (m : (ℓ : Loc nD τ sig) → Buf (Elt F) ℓ) (c : Dev nD) :
    res_main_v133 m c = head (mlpA128 (agg128 (mlpB (agg128 (mlpA64 (agg64 (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10)))
        (m ((c.tc : Thread nD τ).loc main_arg1)) (m ((c.tc : Thread nD τ).loc main_arg11)))
        (m ((c.tc : Thread nD τ).loc main_arg12)) (m ((c.tc : Thread nD τ).loc main_arg13)) (m ((c.tc : Thread nD τ).loc main_arg14)) (m ((c.tc : Thread nD τ).loc main_arg15))
        (m ((c.tc : Thread nD τ).loc main_arg16)) (m ((c.tc : Thread nD τ).loc main_arg17)))
        (m ((c.tc : Thread nD τ).loc main_arg1)) (m ((c.tc : Thread nD τ).loc main_arg18)))
        (m ((c.tc : Thread nD τ).loc main_arg19)) (m ((c.tc : Thread nD τ).loc main_arg20)) (m ((c.tc : Thread nD τ).loc main_arg21)) (m ((c.tc : Thread nD τ).loc main_arg22))
        (m ((c.tc : Thread nD τ).loc main_arg23)) (m ((c.tc : Thread nD τ).loc main_arg24)) (m ((c.tc : Thread nD τ).loc main_arg25)) (m ((c.tc : Thread nD τ).loc main_arg26)))
        (m ((c.tc : Thread nD τ).loc main_arg27)) (m ((c.tc : Thread nD τ).loc main_arg28)) (m ((c.tc : Thread nD τ).loc main_arg29)) (m ((c.tc : Thread nD τ).loc main_arg30)) := by
  unfold res_main_v133 head mlpA128 agg128 mlpB mlpA64 agg64
  rfl

end Cert.ReferenceIdeal.Hand

end
-- ==== Proof.RStages.lean ====
/-
  The reference's dense stages, entry by entry.

  At the ideal instance a host dot_general with one contracted axis is the sum over the contraction coordinate, a
  vector laid along the columns and broadcast over the rows contributes its entry of the column, and the host's
  reciprocal square root is the extended-real function. So each dense stage of the reference applies one row function
  to every row of its operand: `mlpA64` and `mlpA128` are `rowA`, `mlpB` is `rowB`, and the head read at node r is the
  final projection of the relu of the affine map of row r.
-/
import proofs.«164471_j84344567759038_1_alg».proof.Proof.RSpec
import proofs.«164471_j84344567759038_1_alg».proof.Proof.Spec
import proofs.«164471_j84344567759038_1_alg».proof.Proof.LibPlainDot
import proofs.«164471_j84344567759038_1_alg».proof.Proof.LibRowOps

noncomputable section

open scoped BigOperators

namespace Cert.ReferenceIdeal.Hand

open Cert.ReferenceIdeal Cert.ReferenceIdeal.Gen Cert.Gin
open Idealize.ShloMosaic Idealize.ShloMosaic.ValueIdx Idealize.ShloMosaic.PlainDot Idealize.ShloMosaic.RowOps Idealize.ShloMosaic.RowRead

theorem dgA : dot_S100000x64_S64x128_S100000x128_1_0_0_1_n_n = DotDims.plain 100000 64 128 := rfl
theorem dgB : dot_S100000x128_S128x128_S100000x128_1_0_0_1_n_n = DotDims.plain 100000 128 128 := rfl
theorem dgC : dot_S100000x128_S128x1_S100000x1_1_0_0_1_n_n = DotDims.plain 100000 128 1 := rfl

theorem dg64 (l : FVec Ideal S100000x64 .f32) (r : FVec Ideal S64x128 .f32) (p : Fin 100000) (q : Fin 128) :
    Host.dotGeneral (F := Ideal) dot_S100000x64_S64x128_S100000x128_1_0_0_1_n_n none l r (ix2 p q)
      = ∑ k : Fin 64, l (ix2 p k) * r (ix2 k q) := dotGeneral_plain _ dgA none l r p q
theorem dg128 (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := dotGeneral_plain _ dgB none l r p q
theorem dg1 (l : FVec Ideal S100000x128 .f32) (r : FVec Ideal S128x1 .f32) (p : Fin 100000) (q : Fin 1) :
    Host.dotGeneral (F := Ideal) dot_S100000x128_S128x1_S100000x1_1_0_0_1_n_n none l r (ix2 p q)
      = ∑ k : Fin 128, l (ix2 p k) * r (ix2 k q) := dotGeneral_plain _ dgC none l r p q

/-- A 128-vector laid along the columns and spread over the rows. -/
theorem hb {α : Type} (v : S128.Idx → α) (p : Fin 100000) (q : Fin 128) :
    broadcastInDim S100000x128 ![0, 1] bcast_S1x128_S100000x128_0_1 (broadcastInDim S1x128 ![1] bcast_S128_S1x128_1 v) (ix2 p q)
      = v (ix1 q) := host_bias_row _ _ rfl _ _ rfl v p q
/-- The one-entry bias of the last projection. -/
theorem hb1 {α : Type} (v : S1.Idx → α) (p : Fin 100000) (q : Fin 1) :
    broadcastInDim S100000x1 ![0, 1] bcast_S1x1_S100000x1_0_1 (broadcastInDim S1x1 ![1] bcast_S1_S1x1_1 v) (ix2 p q)
      = v (ix1 q) := host_bias_row _ _ rfl _ _ rfl v p q
/-- A scalar spread over a [100000, 128] matrix. -/
theorem hsc2 {α : Type} (x : S_.Idx → α) (p : Fin 100000) (q : Fin 128) :
    broadcastInDim S100000x128 ![] bcast_S_S100000x128 x (ix2 p q) = x ix0 := broadcastInDim_scalar_apply _ _ _ _
/-- A scalar spread over a 128-vector. -/
theorem hsc1 {α : Type} (x : S_.Idx → α) (q : Fin 128) :
    broadcastInDim S128 ![] bcast_S_S128 x (ix1 q) = x ix0 := broadcastInDim_scalar_apply _ _ _ _

theorem mlpA64_eq (a : (⟨S100000x64, .f32⟩ : BufTy).Contents (Elt Ideal)) (W1a : (⟨S64x128, .f32⟩ : BufTy).Contents (Elt Ideal)) (b1a : (⟨S128, .f32⟩ : BufTy).Contents (Elt Ideal))
    (W1b : (⟨S128x128, .f32⟩ : BufTy).Contents (Elt Ideal)) (b1b g be mu var : (⟨S128, .f32⟩ : BufTy).Contents (Elt Ideal)) :
    mlpA64 (F := Ideal) a W1a b1a W1b b1b g be mu var = stage (fun x => rowA x W1a b1a W1b b1b g be mu var) a := by
  funext i
  obtain ⟨p, q, rfl⟩ : ∃ (p : Fin 100000) (q : Fin 128), i = ix2 p q := ⟨i 0, i 1, eq_ix2 i⟩
  rw [stage_apply]
  unfold mlpA64 rowA bn relu aff
  simp only [addf_apply, mulf_apply, subf_apply, maximumf_apply, host_bias_row, broadcastInDim_scalar_apply, constant_apply, host_rsqrt_apply, dg64, dg128]

theorem mlpA128_eq (a : (⟨S100000x128, .f32⟩ : BufTy).Contents (Elt Ideal)) (W3a : (⟨S128x128, .f32⟩ : BufTy).Contents (Elt Ideal)) (b3a : (⟨S128, .f32⟩ : BufTy).Contents (Elt Ideal))
    (W3b : (⟨S128x128, .f32⟩ : BufTy).Contents (Elt Ideal)) (b3b g be mu var : (⟨S128, .f32⟩ : BufTy).Contents (Elt Ideal)) :
    mlpA128 (F := Ideal) a W3a b3a W3b b3b g be mu var = stage (fun x => rowA x W3a b3a W3b b3b g be mu var) a := by
  funext i
  obtain ⟨p, q, rfl⟩ : ∃ (p : Fin 100000) (q : Fin 128), i = ix2 p q := ⟨i 0, i 1, eq_ix2 i⟩
  rw [stage_apply]
  unfold mlpA128 rowA bn relu aff
  simp only [addf_apply, mulf_apply, subf_apply, maximumf_apply, host_bias_row, broadcastInDim_scalar_apply, constant_apply, host_rsqrt_apply, dg128]

theorem mlpB_eq (a : (⟨S100000x128, .f32⟩ : BufTy).Contents (Elt Ideal)) (W2a : (⟨S128x128, .f32⟩ : BufTy).Contents (Elt Ideal)) (b2a g be mu var : (⟨S128, .f32⟩ : BufTy).Contents (Elt Ideal)) :
    mlpB (F := Ideal) a W2a b2a g be mu var = stage (fun x => rowB x W2a b2a g be mu var) a := by
  funext i
  obtain ⟨p, q, rfl⟩ : ∃ (p : Fin 100000) (q : Fin 128), i = ix2 p q := ⟨i 0, i 1, eq_ix2 i⟩
  rw [stage_apply]
  unfold mlpB rowB bn relu aff
  simp only [addf_apply, mulf_apply, subf_apply, maximumf_apply, host_bias_row, broadcastInDim_scalar_apply, constant_apply, host_rsqrt_apply, dg128]

/-- The head at node r. -/
theorem head_apply (h : (⟨S100000x128, .f32⟩ : BufTy).Contents (Elt Ideal)) (Wl : (⟨S128x128, .f32⟩ : BufTy).Contents (Elt Ideal)) (bl : (⟨S128, .f32⟩ : BufTy).Contents (Elt Ideal))
    (Wf : (⟨S128x1, .f32⟩ : BufTy).Contents (Elt Ideal)) (bf : (⟨S1, .f32⟩ : BufTy).Contents (Elt Ideal)) (r : Fin 100000) :
    head (F := Ideal) h Wl bl Wf bf (ix1 r)
      = aff (fun k => relu (aff (fun k' => h (ix2 r k')) Wl bl k)) Wf bf (0 : Fin 1) := by
  unfold head relu aff
  rw [shapeCast_a1_a_apply]
  simp only [addf_apply, maximumf_apply, host_bias_row, broadcastInDim_scalar_apply, constant_apply, dg1, dg128]

end Cert.ReferenceIdeal.Hand

end
-- ==== Proof.LibScatterSet.lean ====
/-
  Reading a "set" scatter at one element.

  `Host.scatter d (fun _ b => b) x idx upd` walks through the update positions in row-major order;
  each position whose target lies inside the operand overwrites that target with the update's
  element. This module says what is found at an element `i` afterwards:

  * if no update position targets `i`, the operand's element `x i` is still there;
  * if exactly one update position `j` targets `i`, the update's element `upd j` is there.

  Both are instances of the same statement about the left fold over ANY list of positions, proved
  by induction on the list: a position that does not target `i` leaves element `i` alone, and
  after the one position that does target `i` nothing touches it again.

  The last part specialises this to writing an [R, n] block into columns `off … off + n − 1` of an
  [R, C] matrix (one start index, both update axes window axes, the start index naming the
  column axis): inside the column range the block is read, outside it the operand.
-/
import Idealize.ShloMosaic.PureOps.ShapeOps
import Idealize.ShloMosaic.Lib.ValueIdx

namespace Idealize.ShloMosaic.ScatterSet

open Idealize.ShloMosaic Idealize.ShloMosaic.ValueIdx

section Fold
variable {s si u : Shape} {w : ℕ} {α : Type}

/-- One step of the scatter's fold with the overwriting body: position `n` of the update, when its
    target is inside the operand, replaces the element there. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose position does not target `i` leaves element `i` as it was. -/
theorem step_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  generalize d.resultIdx? (u.rowMajor.symm n) idx = o at h
  cases o with
  | none => rfl
  | some i0 =>
    show (if i = i0 then _ else _) = _
    rw [if_neg]
    rintro rfl
    exact h rfl

/-- A step whose position targets `i` puts the update's element there. -/
theorem step_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  exact if_pos rfl

/-- Folding over positions none of which targets `i` leaves element `i` as it was. -/
theorem foldl_of_miss (d : ScatterDims s si u) (idx : IVec si w) (upd : u.Idx → α) (i : s.Idx)
    (l : List (Fin u.numel)) (r : s.Idx → α)
    (h : ∀ n ∈ l, d.resultIdx? (u.rowMajor.symm n) idx ≠ some i) :
    l.foldl (step d idx upd) r i = r i := by
  induction l generalizing r with
  | nil => rfl
  | cons n l ih =>
    rw [List.foldl_cons, ih _ (fun n' hn' => h n' (List.mem_cons_of_mem _ hn'))]
    exact step_of_ne d idx upd r n i (h n (List.mem_cons_self ..))

/-- Folding over distinct positions exactly one of which, `n₀`, targets `i` leaves the update's
    element at `n₀` there. -/
theorem foldl_of_hit (d : ScatterDims s si u) (idx : IVec si w) (upd : u.Idx → α) (i : s.Idx)
    (l : List (Fin u.numel)) (r : s.Idx → α) (n₀ : Fin u.numel) (hmem : n₀ ∈ l) (hnd : l.Nodup)
    (hhit : d.resultIdx? (u.rowMajor.symm n₀) idx = some i)
    (huniq : ∀ n ∈ l, d.resultIdx? (u.rowMajor.symm n) idx = some i → n = n₀) :
    l.foldl (step d idx upd) r i = upd (u.rowMajor.symm n₀) := by
  induction l generalizing r with
  | nil => exact absurd hmem (List.not_mem_nil)
  | cons n l ih =>
    rw [List.foldl_cons]
    have hnd' := List.nodup_cons.1 hnd
    by_cases hn : n = n₀
    · subst hn
      rw [foldl_of_miss d idx upd i l _ (fun n' hn' h' => hnd'.1 (huniq n' (List.mem_cons_of_mem _ hn') h' ▸ hn'))]
      exact step_of_eq d idx upd r n i hhit
    · have hmem' : n₀ ∈ l := by
        rcases List.mem_cons.1 hmem with h | h
        · exact absurd h.symm hn
        · exact h
      exact ih _ hmem' hnd'.2 (fun n' hn' => huniq n' (List.mem_cons_of_mem _ hn'))

/-- An element no update position targets keeps the operand's value. -/
theorem scatter_set_of_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  rw [scatter_eq_foldl]
  exact foldl_of_miss d idx upd i _ x (fun n _ => h _)

/-- An element exactly one update position `j` targets holds the update's element at `j`. -/
theorem scatter_set_of_hit (d : ScatterDims s si u) (x : s.Idx → α) (idx : IVec si w) (upd : u.Idx → α)
    (i : s.Idx) (j : u.Idx) (hj : d.resultIdx? j idx = some i)
    (huniq : ∀ j' : u.Idx, d.resultIdx? j' idx = some i → j' = j) :
    Host.scatter d (fun _ b => b) x idx upd i = upd j := by
  rw [scatter_eq_foldl]
  have e : u.rowMajor.symm (u.rowMajor j) = j := u.rowMajor.symm_apply_apply j
  rw [foldl_of_hit d idx upd i _ x (u.rowMajor j) (List.mem_finRange _) (List.nodup_finRange _)
    (by rw [e]; exact hj)
    (fun n _ hn => by
      have := huniq _ hn
      rw [← this]; exact (u.rowMajor.apply_symm_apply n).symm), e]

end Fold

section Columns
variable {w : ℕ} {α : Type} {R C n : ℕ}

/-- The dimension numbers of writing an [R, n] block into a column range of an [R, C] matrix at ONE
    start index: both update axes are window axes, no operand axis is inserted, and the start index's
    one component is a position on the column axis. -/
def IsColumnWrite (d : ScatterDims ⟨2, ![R, C]⟩ ⟨1, ![1]⟩ ⟨2, ![R, n]⟩) : Prop :=
  d.updateWindowDims = [0, 1] ∧ d.insertedWindowDims = [] ∧ d.scatterDimsToOperandDims = [1] ∧ d.indexVectorDim = 0

/-- With no axis removed every axis is kept. -/
theorem mem_kept_nil {s : Shape} (a : Fin s.rank) : a ∈ s.kept [] := by
  simp [Shape.kept]

theorem start_row (d : ScatterDims ⟨2, ![R, C]⟩ ⟨1, ![1]⟩ ⟨2, ![R, n]⟩) (hd : IsColumnWrite d)
    (j : (⟨2, ![R, n]⟩ : Shape).Idx) (idx : IVec ⟨1, ![1]⟩ w) : d.start j idx (0 : Fin 2) = 0 := by
  obtain ⟨uw, iw, sd, iv, wf⟩ := d
  obtain ⟨h1, h2, h3, h4⟩ := hd
  simp only at h1 h2 h3 h4
  subst h1 h2 h3 h4
  unfold ScatterDims.start
  exact dif_neg (show ¬ ((0 : Fin 2) ∈ ([1] : List (Fin 2))) by decide)

theorem start_col (d : ScatterDims ⟨2, ![R, C]⟩ ⟨1, ![1]⟩ ⟨2, ![R, n]⟩) (hd : IsColumnWrite d)
    (j : (⟨2, ![R, n]⟩ : Shape).Idx) (idx : IVec ⟨1, ![1]⟩ w) (off : ℤ) (hidx : ∀ k, (idx k).toInt = off) :
    d.start j idx (1 : Fin 2) = off := by
  obtain ⟨uw, iw, sd, iv, wf⟩ := d
  obtain ⟨h1, h2, h3, h4⟩ := hd
  simp only at h1 h2 h3 h4
  subst h1 h2 h3 h4
  unfold ScatterDims.start
  exact (dif_pos (show (1 : Fin 2) ∈ ([1] : List (Fin 2)) by decide)).trans (hidx _)

theorem window_row (d : ScatterDims ⟨2, ![R, C]⟩ ⟨1, ![1]⟩ ⟨2, ![R, n]⟩) (hd : IsColumnWrite d)
    (j : (⟨2, ![R, n]⟩ : Shape).Idx) : d.window j (0 : Fin 2) = (j 0).val := by
  obtain ⟨uw, iw, sd, iv, wf⟩ := d
  obtain ⟨h1, h2, h3, h4⟩ := hd
  simp only at h1 h2 h3 h4
  subst h1 h2 h3 h4
  unfold ScatterDims.window
  exact (dif_pos (mem_kept_nil _)).trans rfl

theorem window_col (d : ScatterDims ⟨2, ![R, C]⟩ ⟨1, ![1]⟩ ⟨2, ![R, n]⟩) (hd : IsColumnWrite d)
    (j : (⟨2, ![R, n]⟩ : Shape).Idx) : d.window j (1 : Fin 2) = (j 1).val := by
  obtain ⟨uw, iw, sd, iv, wf⟩ := d
  obtain ⟨h1, h2, h3, h4⟩ := hd
  simp only at h1 h2 h3 h4
  subst h1 h2 h3 h4
  unfold ScatterDims.window
  exact (dif_pos (mem_kept_nil _)).trans rfl

/-- Where update position `j` lands: same row, column `off` further right. -/
theorem resultIdx?_columns (d : ScatterDims ⟨2, ![R, C]⟩ ⟨1, ![1]⟩ ⟨2, ![R, n]⟩) (hd : IsColumnWrite d)
    (off : ℕ) (hoff : off + n ≤ C) (idx : IVec ⟨1, ![1]⟩ w) (hidx : ∀ k, (idx k).toInt = (off : ℤ))
    (j : (⟨2, ![R, n]⟩ : Shape).Idx) :
    d.resultIdx? j idx
      = some (ix2 (⟨(j 0).val, idx2_lt0 j⟩ : Fin R) (⟨off + (j 1).val, by have := idx2_lt1 j; omega⟩ : Fin C)) := by
  have h0 : d.start j idx (0 : Fin 2) + d.window j (0 : Fin 2) = ((j 0).val : ℤ) := by
    rw [start_row d hd, window_row d hd]; simp
  have h1 : d.start j idx (1 : Fin 2) + d.window j (1 : Fin 2) = ((off + (j 1).val : ℕ) : ℤ) := by
    rw [start_col d hd j idx off hidx, window_col d hd]; simp
  have l0 := idx2_lt0 j
  have l1 := idx2_lt1 j
  unfold ScatterDims.resultIdx?
  rw [dif_pos (Fin.forall_fin_two.2
    ⟨⟨by rw [h0]; omega, by rw [h0]; show ((j 0).val : ℤ) < (R : ℤ); omega⟩,
     ⟨by rw [h1]; omega, by rw [h1]; show ((off + (j 1).val : ℕ) : ℤ) < (C : ℤ); omega⟩⟩)]
  congr 1
  funext a
  revert a
  refine Fin.forall_fin_two.2 ⟨?_, ?_⟩
  · exact Fin.ext (by show (d.start j idx (0 : Fin 2) + d.window j (0 : Fin 2)).toNat = (j 0).val; rw [h0]; omega)
  · exact Fin.ext (by show (d.start j idx (1 : Fin 2) + d.window j (1 : Fin 2)).toNat = off + (j 1).val; rw [h1]; omega)

/-- Inside the column range the written block is read. -/
theorem scatter_columns_inside (d : ScatterDims ⟨2, ![R, C]⟩ ⟨1, ![1]⟩ ⟨2, ![R, n]⟩) (hd : IsColumnWrite d)
    (off : ℕ) (hoff : off + n ≤ C) (x : (⟨2, ![R, C]⟩ : Shape).Idx → α) (idx : IVec ⟨1, ![1]⟩ w)
    (hidx : ∀ k, (idx k).toInt = (off : ℤ)) (upd : (⟨2, ![R, n]⟩ : Shape).Idx → α) (r : Fin R) (c : Fin n) :
    Host.scatter d (fun _ b => b) x idx upd (ix2 r (⟨off + c.val, by have := c.isLt; omega⟩ : Fin C)) = upd (ix2 r c) := by
  refine scatter_set_of_hit d x idx upd _ (ix2 r c) ?_ ?_
  · rw [resultIdx?_columns d hd off hoff idx hidx]
    rfl
  · intro j' hj'
    rw [resultIdx?_columns d hd off hoff idx hidx] at hj'
    have e := Option.some.inj hj'
    have e0 : (j' 0).val = r.val := congrArg Fin.val (congrFun e (0 : Fin 2))
    have e1 : off + (j' 1).val = off + c.val := congrArg Fin.val (congrFun e (1 : Fin 2))
    funext a
    match a with
    | ⟨0, _⟩ => exact Fin.ext e0
    | ⟨1, _⟩ => exact Fin.ext (by show (j' 1).val = c.val; omega)

/-- Outside the column range the operand is read. -/
theorem scatter_columns_outside (d : ScatterDims ⟨2, ![R, C]⟩ ⟨1, ![1]⟩ ⟨2, ![R, n]⟩) (hd : IsColumnWrite d)
    (off : ℕ) (hoff : off + n ≤ C) (x : (⟨2, ![R, C]⟩ : Shape).Idx → α) (idx : IVec ⟨1, ![1]⟩ w)
    (hidx : ∀ k, (idx k).toInt = (off : ℤ)) (upd : (⟨2, ![R, n]⟩ : Shape).Idx → α) (r : Fin R) (c : Fin C)
    (hc : c.val < off ∨ off + n ≤ c.val) :
    Host.scatter d (fun _ b => b) x idx upd (ix2 r c) = x (ix2 r c) := by
  refine scatter_set_of_miss d x idx upd _ ?_
  intro j hj
  rw [resultIdx?_columns d hd off hoff idx hidx] at hj
  have e1 : off + (j 1).val = c.val := congrArg Fin.val (congrFun (Option.some.inj hj) (1 : Fin 2))
  have := idx2_lt1 j
  omega

end Columns

end Idealize.ShloMosaic.ScatterSet
-- ==== Proof.LibScatterZero.lean ====
/-
  A "set" scatter whose start indices are all zero.

  When every component of every start index is zero, update position j lands at its window coordinates alone: on each
  operand axis the landing coordinate is the window coordinate `d.window j a` (j's coordinate on the window axis that
  goes to a, zero on an inserted axis). So an operand element i whose coordinates are the window coordinates of exactly
  one position j holds the update's element at j after the scatter.
-/
import proofs.«164471_j84344567759038_1_alg».proof.Proof.LibScatterSet

namespace Idealize.ShloMosaic.ScatterSet

open Idealize.ShloMosaic

variable {s si u : Shape} {w : ℕ} {α : Type}

/-- With zero start indices the window starts at the origin on every axis. -/
theorem start_of_zero (d : ScatterDims s si u) (idx : IVec si w) (hidx : ∀ k, (idx k).toInt = 0) (j : u.Idx)
    (a : Fin s.rank) : d.start j idx a = 0 := by
  unfold ScatterDims.start
  split
  · exact hidx _
  · rfl

/-- With zero start indices, position j lands at the element whose coordinates are j's window coordinates. -/
theorem resultIdx?_of_zero (d : ScatterDims s si u) (idx : IVec si w) (hidx : ∀ k, (idx k).toInt = 0) (j : u.Idx)
    (i : s.Idx) (hi : ∀ a, (i a).val = d.window j a) : d.resultIdx? j idx = some i := by
  unfold ScatterDims.resultIdx?
  have hb : ∀ a, 0 ≤ d.start j idx a + d.window j a ∧ d.start j idx a + (d.window j a : ℤ) < s.size a := fun a => by
    rw [start_of_zero d idx hidx j a, ← hi a]
    have := (i a).isLt
    omega
  rw [dif_pos hb]
  refine congrArg some (funext fun a => Fin.ext ?_)
  show (d.start j idx a + d.window j a).toNat = (i a).val
  rw [start_of_zero d idx hidx j a, ← hi a]
  omega

/-- The element at the window coordinates of exactly one position holds that position's update. -/
theorem scatter_set_of_zero (d : ScatterDims s si u) (x : s.Idx → α) (idx : IVec si w) (hidx : ∀ k, (idx k).toInt = 0)
    (upd : u.Idx → α) (i : s.Idx) (j : u.Idx) (hi : ∀ a, (i a).val = d.window j a)
    (huniq : ∀ j' : u.Idx, (∀ a, (i a).val = d.window j' a) → j' = j) :
    Host.scatter d (fun _ b => b) x idx upd i = upd j := by
  refine scatter_set_of_hit d x idx upd i j (resultIdx?_of_zero d idx hidx j i hi) fun j' hj' => huniq j' fun a => ?_
  -- position j' lands at its own window coordinates; if that is i, they are i's coordinates
  have hb : ∀ a, 0 ≤ d.start j' idx a + d.window j' a ∧ d.start j' idx a + (d.window j' a : ℤ) < s.size a := by
    by_contra hne
    unfold ScatterDims.resultIdx? at hj'
    rw [dif_neg hne] at hj'
    cases hj'
  unfold ScatterDims.resultIdx? at hj'
  rw [dif_pos hb] at hj'
  have e := congrArg Fin.val (congrFun (Option.some.inj hj') a)
  have e' : (d.start j' idx a + d.window j' a).toNat = (i a).val := e
  rw [start_of_zero d idx hidx j' a] at e'
  omega

end Idealize.ShloMosaic.ScatterSet
-- ==== Proof.Bridge.lean ====
/-
  The two programs compute one function.

  At the ideal instance both programs are the same composition: aggregate over the graph, apply `rowA` to every
  row, aggregate, apply `rowB`, aggregate, apply the head. The aggregations are the same host operations on both
  sides. The dense stages agree row by row (the kernel regions by their blocks, the reference by its operations read
  at an index). The head differs in spelling only: the kernel multiplies by a [128, 128] matrix whose column 0 is
  the projection weight and keeps column 0 of the product, with a bias vector whose entry 0 is the projection bias;
  the reference multiplies by the [128, 1] weight and adds the one-entry bias. Column 0 of the padded product is the
  reference's product.
-/
import proofs.«164471_j84344567759038_1_alg».proof.Proof.KValue
import proofs.«164471_j84344567759038_1_alg».proof.Proof.RStages
import proofs.«164471_j84344567759038_1_alg».proof.Proof.LibScatterZero

set_option maxRecDepth 16384

noncomputable section

namespace Cert.Bridge

open Cert.Gin
open Idealize.ShloMosaic Idealize.ShloMosaic.TcCoe Idealize.SL.Sem Idealize.ShloMosaic.ValueIdx
open Idealize.ShloMosaic.RowOps Idealize.ShloMosaic.RowRead

/-! ## The aggregations are the same operations -/

theorem agg64_eq (x : (⟨Cert.KernelIdeal.S100000x64, .f32⟩ : BufTy).Contents (Elt Ideal)) (ei : (⟨Cert.KernelIdeal.S2x1600000, .i32⟩ : BufTy).Contents (Elt Ideal)) (eps : (⟨Cert.KernelIdeal.S_, .f32⟩ : BufTy).Contents (Elt Ideal)) :
    Cert.ReferenceIdeal.Hand.agg64 (F := Ideal) x ei eps = Cert.KernelIdeal.Hand.aggK64 (F := Ideal) x (Cert.KernelIdeal.Hand.srcK ei) (Cert.KernelIdeal.Hand.dstK ei) eps := rfl

theorem agg128_eq (h : (⟨Cert.KernelIdeal.S100000x128, .f32⟩ : BufTy).Contents (Elt Ideal)) (ei : (⟨Cert.KernelIdeal.S2x1600000, .i32⟩ : BufTy).Contents (Elt Ideal)) (eps : (⟨Cert.KernelIdeal.S_, .f32⟩ : BufTy).Contents (Elt Ideal)) :
    Cert.ReferenceIdeal.Hand.agg128 (F := Ideal) h ei eps = Cert.KernelIdeal.Hand.aggK128 (F := Ideal) h (Cert.KernelIdeal.Hand.srcK ei) (Cert.KernelIdeal.Hand.dstK ei) eps := rfl

/-! ## The padded projection read at column 0 -/

/-- The one start index of both paddings is zero. -/
theorem idx_zero (k : Cert.KernelIdeal.S1.Idx) :
    ((broadcastInDim Cert.KernelIdeal.S1 ![] Cert.KernelIdeal.Facts₀.bcast_S_S1 (constantI Cert.KernelIdeal.S_ 32 0#32) : IVec Cert.KernelIdeal.S1 32) k).toInt = 0 := by
  show ((0#32 : BitVec 32)).toInt = 0
  decide

theorem wf_window0 (j : Cert.KernelIdeal.S128.Idx) : Cert.KernelIdeal.scatter_S128x128_S1_S128_0_1_1_0.window j (0 : Fin 2) = (j 0).val := by
  unfold ScatterDims.window
  exact (dif_pos (by decide)).trans rfl
theorem wf_window1 (j : Cert.KernelIdeal.S128.Idx) : Cert.KernelIdeal.scatter_S128x128_S1_S128_0_1_1_0.window j (1 : Fin 2) = 0 := by
  unfold ScatterDims.window
  exact dif_neg (by decide)
theorem bf_window0 (j : Cert.KernelIdeal.S_.Idx) : Cert.KernelIdeal.scatter_S128_S1_S__n_0_0_0.window j (0 : Fin 1) = 0 := by
  unfold ScatterDims.window
  exact dif_neg (by decide)

/-- Column 0 of the padded weight is the projection weight. -/
theorem wfpad_col (wf : (⟨Cert.KernelIdeal.S128x1, .f32⟩ : BufTy).Contents (Elt Ideal)) (k : Fin 128) :
    Cert.KernelIdeal.Hand.wfpad (F := Ideal) wf (ix2 k (0 : Fin 128)) = wf (ix2 k (0 : Fin 1)) := by
  unfold Cert.KernelIdeal.Hand.wfpad
  refine (ScatterSet.scatter_set_of_zero _ _ _ idx_zero _ (ix2 k (0 : Fin 128)) (ix1 k) ?_ ?_).trans ?_
  · intro a
    match a with
    | ⟨0, _⟩ => exact (wf_window0 (ix1 k)).symm
    | ⟨1, _⟩ => exact (wf_window1 (ix1 k)).symm
  · intro j' h
    have h0 : k.val = (j' 0).val := (h 0).trans (wf_window0 j')
    exact (eq_ix1 j').trans (congrArg ix1 (Fin.ext h0.symm))
  · show shapeCast Cert.KernelIdeal.S128 wf Cert.KernelIdeal.Facts₀.shapeCasts_S128x1_S128 (ix1 k) = _
    exact shapeCast_a1_a_apply wf _ k

/-- Entry 0 of the padded bias is the projection bias. -/
theorem bfpad_zero (bf : (⟨Cert.KernelIdeal.S1, .f32⟩ : BufTy).Contents (Elt Ideal)) :
    Cert.KernelIdeal.Hand.bfpad (F := Ideal) bf (ix1 (0 : Fin 128)) = bf (ix1 (0 : Fin 1)) := by
  unfold Cert.KernelIdeal.Hand.bfpad
  refine (ScatterSet.scatter_set_of_zero _ _ _ idx_zero _ (ix1 (0 : Fin 128)) ix0 ?_ ?_).trans ?_
  · intro a
    match a with
    | ⟨0, _⟩ => exact (bf_window0 ix0).symm
  · intro j' _
    exact eq_ix0 j'
  · show shapeCast Cert.KernelIdeal.S_ bf Cert.KernelIdeal.Facts₀.shapeCasts_S1_S_ ix0 = _
    refine shapeCast_apply bf _ ix0 (ix1 (0 : Fin 1)) ?_
    have h1 : ∀ x : Fin Cert.KernelIdeal.S1.numel, x.val = 0 := fun x => by
      have := x.isLt
      have e : Cert.KernelIdeal.S1.numel = 1 := by decide
      omega
    have h0 : ∀ x : Fin Cert.KernelIdeal.S_.numel, x.val = 0 := fun x => by
      have := x.isLt
      have e : Cert.KernelIdeal.S_.numel = 1 := by decide
      omega
    exact (h1 _).trans (h0 _).symm

/-- The kept column of the last region's output. -/
theorem tailK_apply (o : (⟨Cert.KernelIdeal.S100000x128, .f32⟩ : BufTy).Contents (Elt Ideal)) (r : Fin 100000) :
    Cert.KernelIdeal.Hand.tailK (F := Ideal) o (ix1 r) = o (ix2 r (0 : Fin 128)) := by
  unfold Cert.KernelIdeal.Hand.tailK
  rw [shapeCast_a1_a_apply]
  exact slice2_axis1_apply 0 o _ r (0 : Fin 1) (0 : Fin 128) rfl

/-! ## The head -/

theorem head_eq (a : (⟨Cert.KernelIdeal.S100000x128, .f32⟩ : BufTy).Contents (Elt Ideal)) (W3a : (⟨Cert.KernelIdeal.S128x128, .f32⟩ : BufTy).Contents (Elt Ideal)) (b3a : (⟨Cert.KernelIdeal.S128, .f32⟩ : BufTy).Contents (Elt Ideal))
    (W3b : (⟨Cert.KernelIdeal.S128x128, .f32⟩ : BufTy).Contents (Elt Ideal)) (b3b g be mu var : (⟨Cert.KernelIdeal.S128, .f32⟩ : BufTy).Contents (Elt Ideal)) (Wl : (⟨Cert.KernelIdeal.S128x128, .f32⟩ : BufTy).Contents (Elt Ideal))
    (bl : (⟨Cert.KernelIdeal.S128, .f32⟩ : BufTy).Contents (Elt Ideal)) (Wf : (⟨Cert.KernelIdeal.S128x1, .f32⟩ : BufTy).Contents (Elt Ideal)) (bf : (⟨Cert.KernelIdeal.S1, .f32⟩ : BufTy).Contents (Elt Ideal)) :
    Cert.ReferenceIdeal.Hand.head (F := Ideal) (Cert.ReferenceIdeal.Hand.mlpA128 (F := Ideal) a W3a b3a W3b b3b g be mu var) Wl bl Wf bf
      = Cert.KernelIdeal.Hand.tailK (F := Ideal) (stage (fun x => rowH x W3a b3a W3b b3b g be mu var Wl bl
          (Cert.KernelIdeal.Hand.wfpad (F := Ideal) Wf) (Cert.KernelIdeal.Hand.bfpad (F := Ideal) bf)) a) := by
  funext i
  obtain ⟨r, rfl⟩ : ∃ r : Fin 100000, i = ix1 r := ⟨i 0, eq_ix1 i⟩
  rw [Cert.ReferenceIdeal.Hand.head_apply, tailK_apply, stage_apply, Cert.ReferenceIdeal.Hand.mlpA128_eq]
  unfold rowH
  simp only [stage_apply]
  exact (aff_pad (by decide) _ _ _ _ _ (fun k => wfpad_col Wf k) (bfpad_zero bf)).symm

/-! ## The whole -/

set_option maxHeartbeats 8000000 in
/-- The reference's result term at the kernel's arguments is the kernel's result. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (e23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (e24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (e25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (e26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (e27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (e28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (e29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (e30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.Value.res_main_v133 (F := Ideal) m' c = Cert.KernelIdeal.Hand.outK m c := by
  rw [Cert.ReferenceIdeal.Hand.res_eq, e0, e1, e2, e3, e4, e5, e6, e7, e8, e9, e10, e11, e12, e13, e14, e15, e16, e17, e18, e19, e20, e21, e22, e23, e24, e25, e26, e27, e28, e29, e30]
  rw [agg64_eq, Cert.ReferenceIdeal.Hand.mlpA64_eq, agg128_eq, Cert.ReferenceIdeal.Hand.mlpB_eq, agg128_eq, head_eq]
  rfl

end Cert.Bridge

end
-- ==== Proof.lean ====
/-
  The certificate: the three frames, the (empty) idealization ledger, and the algebraic equality.

  The kernel program and its idealization run to completion with their arguments unchanged by the generated frame
  certificates of their three regions; the reference by its generated run. The idealization rewrote nothing, so
  `preserves` is trivial. For the algebraic claim both idealized programs end with the same result array: the
  kernel program's final memory holds, at the result buffer, the composition of aggregations and row-wise stages of
  its arguments, and the reference's result term, at arguments that agree, is that same composition.
-/
import proofs.«164471_j84344567759038_1_alg».proof.Defs
import proofs.«164471_j84344567759038_1_alg».proof.Proof.Gen.Kernel
import proofs.«164471_j84344567759038_1_alg».proof.Proof.Gen.Kernel.Skeleton
import proofs.«164471_j84344567759038_1_alg».proof.Proof.Gen.Kernel.Launch
import proofs.«164471_j84344567759038_1_alg».proof.Proof.Gen.Kernel.Points
import proofs.«164471_j84344567759038_1_alg».proof.Proof.Gen.Kernel.Frame
import proofs.«164471_j84344567759038_1_alg».proof.Proof.Gen.KernelIdeal
import proofs.«164471_j84344567759038_1_alg».proof.Proof.Gen.KernelIdeal.Skeleton
import proofs.«164471_j84344567759038_1_alg».proof.Proof.Gen.KernelIdeal.Launch
import proofs.«164471_j84344567759038_1_alg».proof.Proof.Gen.KernelIdeal.Points
import proofs.«164471_j84344567759038_1_alg».proof.Proof.Gen.KernelIdeal.Frame
import proofs.«164471_j84344567759038_1_alg».proof.Proof.Gen.ReferenceIdeal
import proofs.«164471_j84344567759038_1_alg».proof.Proof.Gen.Pre_finite_inputs
import proofs.«164471_j84344567759038_1_alg».proof.Proof.Gen.ReferenceIdeal.Run
import proofs.«164471_j84344567759038_1_alg».proof.Proof.KRun
import proofs.«164471_j84344567759038_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result array at one function of the arguments. -/
theorem algebraic : Cert.algebraic_KernelIdeal_ReferenceIdeal := by
  intro m ρ m' ρ' _ hagree
  refine ⟨fun c => Cert.KernelIdeal.Hand.outK m c, ?_, ?_⟩
  · refine (θ_run Cert.KernelIdeal.defs _ _).mono (fun _ h c => ⟨(h c).1.trans ?_, (h c).2⟩)
      (Cert.KernelIdeal.Hand.run (F := Ideal) m ρ)
    exact Cert.KernelIdeal.Hand.W7_v68 m ρ c
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27, e28, e29, e30⟩ := hagree c
    exact Cert.Bridge.value_eq m m' c e0 e1 e2 e3 e4 e5 e6 e7 e8 e9 e10 e11 e12 e13 e14 e15 e16 e17 e18 e19 e20 e21 e22 e23 e24 e25 e26 e27 e28 e29 e30

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
